-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x48 : Shape := ⟨2, ![50000, 48]⟩
abbrev S2x320000 : Shape := ⟨2, ![2, 320000]⟩
abbrev S2x48x256 : Shape := ⟨3, ![2, 48, 256]⟩
abbrev S256 : Shape := ⟨1, ![256]⟩
abbrev S2x256x256 : Shape := ⟨3, ![2, 256, 256]⟩
abbrev S_ : Shape := ⟨0, ![]⟩

class Facts : Prop where
  bcast_S_S50000x48 : S_.BroadcastsInDim S50000x48 (![] : Fin 0 → Fin S50000x48.rank)
  reducesTo_S50000x48_S_d0_1 : S50000x48.ReducesTo [0, 1] S_
  h_S_ : 0 < S_.numel
  bcast_S_S2x48x256 : S_.BroadcastsInDim S2x48x256 (![] : Fin 0 → Fin S2x48x256.rank)
  reducesTo_S2x48x256_S_d0_1_2 : S2x48x256.ReducesTo [0, 1, 2] S_
  bcast_S_S256 : S_.BroadcastsInDim S256 (![] : Fin 0 → Fin S256.rank)
  reducesTo_S256_S_d0 : S256.ReducesTo [0] S_
  bcast_S_S2x256x256 : S_.BroadcastsInDim S2x256x256 (![] : Fin 0 → Fin S2x256x256.rank)
  reducesTo_S2x256x256_S_d0_1_2 : S2x256x256.ReducesTo [0, 1, 2] S_

variable [Facts]

def fn_part1 {F : FTy → Type} [FloatOps F] (main_arg5 : FVec F S256 .f32) (main_arg6 : FVec F S2x256x256 .f32) (main_arg7 : FVec F S256 .f32) (main_v13 : IVec S_ 1) (main_v16 : IVec S2x256x256 1) : IVec S_ 1 :=
  let main_c_5 : IVec S_ 1 := constantI S_ 1 1#1
  let main_v17 : IVec S_ 1 := (fun x v => Host.reduce IntOp.andi x v reducesTo_S2x256x256_S_d0_1_2 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S2x256x256 .f32 := Host.absf main_arg6
  let main_cst_8 : FVec F S_ .f32 := constant S_ .f32 0x7F800000#32
  let main_v25 : FVec F S2x256x256 .f32 := broadcastInDim S2x256x256 ![] bcast_S_S2x256x256 main_cst_8
  let main_v26 : IVec S2x256x256 1 := cmpf .olt main_v24 main_v25
  let main_c_9 : IVec S_ 1 := constantI S_ 1 1#1
  let main_v27 : IVec S_ 1 := (fun x v => Host.reduce IntOp.andi x v reducesTo_S2x256x256_S_d0_1_2 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x48 .f32) (main_arg1 : IVec S2x320000 32) (main_arg2 : FVec F S2x48x256 .f32) (main_arg3 : FVec F S256 .f32) (main_arg4 : FVec F S2x256x256 .f32) (main_arg5 : FVec F S256 .f32) (main_arg6 : FVec F S2x256x256 .f32) (main_arg7 : FVec F S256 .f32) : IVec S_ 1 :=
  let main_v0 : FVec F S50000x48 .f32 := Host.absf main_arg0
  let main_cst : FVec F S_ .f32 := constant S_ .f32 0x7F800000#32
  let main_v1 : FVec F S50000x48 .f32 := broadcastInDim S50000x48 ![] bcast_S_S50000x48 main_cst
  let main_v2 : IVec S50000x48 1 := cmpf .olt main_v0 main_v1
  let main_c : IVec S_ 1 := constantI S_ 1 1#1
  let main_v3 : IVec S_ 1 := (fun x v => Host.reduce IntOp.andi x v reducesTo_S50000x48_S_d0_1 h_S_) main_v2 main_c
  let main_v4 : FVec F S2x48x256 .f32 := Host.absf main_arg2
  let main_cst_0 : FVec F S_ .f32 := constant S_ .f32 0x7F800000#32
  let main_v5 : FVec F S2x48x256 .f32 := broadcastInDim S2x48x256 ![] bcast_S_S2x48x256 main_cst_0
  let main_v6 : IVec S2x48x256 1 := cmpf .olt main_v4 main_v5
  let main_c_1 : IVec S_ 1 := constantI S_ 1 1#1
  let main_v7 : IVec S_ 1 := (fun x v => Host.reduce IntOp.andi x v reducesTo_S2x48x256_S_d0_1_2 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S2x256x256 .f32 := Host.absf main_arg4
  let main_cst_4 : FVec F S_ .f32 := constant S_ .f32 0x7F800000#32
  let main_v15 : FVec F S2x256x256 .f32 := broadcastInDim S2x256x256 ![] bcast_S_S2x256x256 main_cst_4
  let main_v16 : IVec S2x256x256 1 := cmpf .olt main_v14 main_v15
  fn_part1 (F := F) main_arg5 main_arg6 main_arg7 main_v13 main_v16
-- ==== Kernel.lean ====
abbrev S50000x48 : Shape := ⟨2, ![50000, 48]⟩
abbrev S2x320000 : Shape := ⟨2, ![2, 320000]⟩
abbrev S2x48x256 : Shape := ⟨3, ![2, 48, 256]⟩
abbrev S256 : Shape := ⟨1, ![256]⟩
abbrev S2x256x256 : Shape := ⟨3, ![2, 256, 256]⟩
abbrev S1x320000 : Shape := ⟨2, ![1, 320000]⟩
abbrev S320000 : Shape := ⟨1, ![320000]⟩
abbrev S_ : Shape := ⟨0, ![]⟩
abbrev S50000 : Shape := ⟨1, ![50000]⟩
abbrev S320000x1 : Shape := ⟨2, ![320000, 1]⟩
abbrev S320000x48 : Shape := ⟨2, ![320000, 48]⟩
abbrev S1x48x256 : Shape := ⟨3, ![1, 48, 256]⟩
abbrev S48x256 : Shape := ⟨2, ![48, 256]⟩
abbrev S50000x256 : Shape := ⟨2, ![50000, 256]⟩
abbrev S2000x48 : Shape := ⟨2, ![2000, 48]⟩
abbrev S2000x256 : Shape := ⟨2, ![2000, 256]⟩
abbrev S1x256 : Shape := ⟨2, ![1, 256]⟩
abbrev S320000x256 : Shape := ⟨2, ![320000, 256]⟩
abbrev S1x256x256 : Shape := ⟨3, ![1, 256, 256]⟩
abbrev S256x256 : Shape := ⟨2, ![256, 256]⟩

abbrev nBuf : Space → Nat
  | .hbm => 112
  | .vmem => 27
  | .smem => 0
  | _ => 0

abbrev bufTy : (tb : Table) → Fin (tcTables nBuf tb) → BufTy
  | .hbm, ⟨0, _⟩ => ⟨S50000x48, .f32⟩
  | .hbm, ⟨1, _⟩ => ⟨S2x320000, .i32⟩
  | .hbm, ⟨2, _⟩ => ⟨S2x48x256, .f32⟩
  | .hbm, ⟨3, _⟩ => ⟨S256, .f32⟩
  | .hbm, ⟨4, _⟩ => ⟨S2x256x256, .f32⟩
  | .hbm, ⟨5, _⟩ => ⟨S256, .f32⟩
  | .hbm, ⟨6, _⟩ => ⟨S2x256x256, .f32⟩
  | .hbm, ⟨7, _⟩ => ⟨S256, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S_, .f32⟩
  | .hbm, ⟨13, _⟩ => ⟨S320000, .f32⟩
  | .hbm, ⟨14, _⟩ => ⟨S_, .f32⟩
  | .hbm, ⟨15, _⟩ => ⟨S50000, .f32⟩
  | .hbm, ⟨16, _⟩ => ⟨S320000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S320000, .i32⟩
  | .hbm, ⟨31, _⟩ => ⟨S320000, .i1⟩
  | .hbm, ⟨32, _⟩ => ⟨S_, .i32⟩
  | .hbm, ⟨33, _⟩ => ⟨S320000, .i32⟩
  | .hbm, ⟨34, _⟩ => ⟨S320000, .i32⟩
  | .hbm, ⟨35, _⟩ => ⟨S320000, .i32⟩
  | .hbm, ⟨36, _⟩ => ⟨S320000x1, .i32⟩
  | .hbm, ⟨37, _⟩ => ⟨S320000, .f32⟩
  | .hbm, ⟨38, _⟩ => ⟨S320000, .f32⟩
  | .hbm, ⟨39, _⟩ => ⟨S_, .i32⟩
  | .hbm, ⟨40, _⟩ => ⟨S320000, .i32⟩
  | .hbm, ⟨41, _⟩ => ⟨S320000, .i1⟩
  | .hbm, ⟨42, _⟩ => ⟨S_, .i32⟩
  | .hbm, ⟨43, _⟩ => ⟨S320000, .i32⟩
  | .hbm, ⟨44, _⟩ => ⟨S320000, .i32⟩
  | .hbm, ⟨45, _⟩ => ⟨S320000, .i32⟩
  | .hbm, ⟨46, _⟩ => ⟨S320000x1, .i32⟩
  | .hbm, ⟨47, _⟩ => ⟨S320000, .f32⟩
  | .hbm, ⟨48, _⟩ => ⟨S320000, .f32⟩
  | .hbm, ⟨49, _⟩ => ⟨S320000x1, .f32⟩
  | .hbm, ⟨50, _⟩ => ⟨S_, .i32⟩
  | .hbm, ⟨51, _⟩ => ⟨S320000, .i32⟩
  | .hbm, ⟨52, _⟩ => ⟨S320000, .i1⟩
  | .hbm, ⟨53, _⟩ => ⟨S_, .i32⟩
  | .hbm, ⟨54, _⟩ => ⟨S320000, .i32⟩
  | .hbm, ⟨55, _⟩ => ⟨S320000, .i32⟩
  | .hbm, ⟨56, _⟩ => ⟨S320000, .i32⟩
  | .hbm, ⟨57, _⟩ => ⟨S320000x1, .i32⟩
  | .hbm, ⟨58, _⟩ => ⟨S320000x48, .f32⟩
  | .hbm, ⟨59, _⟩ => ⟨S320000x48, .f32⟩
  | .hbm, ⟨60, _⟩ => ⟨S320000x48, .f32⟩
  | .hbm, ⟨61, _⟩ => ⟨S_, .f32⟩
  | .hbm, ⟨62, _⟩ => ⟨S50000x48, .f32⟩
  | .hbm, ⟨63, _⟩ => ⟨S320000x1, .i32⟩
  | .hbm, ⟨64, _⟩ => ⟨S50000x48, .f32⟩
  | .hbm, ⟨65, _⟩ => ⟨S1x48x256, .f32⟩
  | .hbm, ⟨66, _⟩ => ⟨S48x256, .f32⟩
  | .hbm, ⟨67, _⟩ => ⟨S1x48x256, .f32⟩
  | .hbm, ⟨68, _⟩ => ⟨S48x256, .f32⟩
  | .hbm, ⟨69, _⟩ => ⟨S50000x256, .f32⟩
  | .hbm, ⟨70, _⟩ => ⟨S320000x1, .f32⟩
  | .hbm, ⟨71, _⟩ => ⟨S_, .i32⟩
  | .hbm, ⟨72, _⟩ => ⟨S320000, .i32⟩
  | .hbm, ⟨73, _⟩ => ⟨S320000, .i1⟩
  | .hbm, ⟨74, _⟩ => ⟨S_, .i32⟩
  | .hbm, ⟨75, _⟩ => ⟨S320000, .i32⟩
  | .hbm, ⟨76, _⟩ => ⟨S320000, .i32⟩
  | .hbm, ⟨77, _⟩ => ⟨S320000, .i32⟩
  | .hbm, ⟨78, _⟩ => ⟨S320000x1, .i32⟩
  | .hbm, ⟨79, _⟩ => ⟨S320000x256, .f32⟩
  | .hbm, ⟨80, _⟩ => ⟨S320000x256, .f32⟩
  | .hbm, ⟨81, _⟩ => ⟨S320000x256, .f32⟩
  | .hbm, ⟨82, _⟩ => ⟨S_, .f32⟩
  | .hbm, ⟨83, _⟩ => ⟨S50000x256, .f32⟩
  | .hbm, ⟨84, _⟩ => ⟨S320000x1, .i32⟩
  | .hbm, ⟨85, _⟩ => ⟨S50000x256, .f32⟩
  | .hbm, ⟨86, _⟩ => ⟨S1x256x256, .f32⟩
  | .hbm, ⟨87, _⟩ => ⟨S256x256, .f32⟩
  | .hbm, ⟨88, _⟩ => ⟨S1x256x256, .f32⟩
  | .hbm, ⟨89, _⟩ => ⟨S256x256, .f32⟩
  | .hbm, ⟨90, _⟩ => ⟨S50000x256, .f32⟩
  | .hbm, ⟨91, _⟩ => ⟨S320000x1, .f32⟩
  | .hbm, ⟨92, _⟩ => ⟨S_, .i32⟩
  | .hbm, ⟨93, _⟩ => ⟨S320000, .i32⟩
  | .hbm, ⟨94, _⟩ => ⟨S320000, .i1⟩
  | .hbm, ⟨95, _⟩ => ⟨S_, .i32⟩
  | .hbm, ⟨96, _⟩ => ⟨S320000, .i32⟩
  | .hbm, ⟨97, _⟩ => ⟨S320000, .i32⟩
  | .hbm, ⟨98, _⟩ => ⟨S320000, .i32⟩
  | .hbm, ⟨99, _⟩ => ⟨S320000x1, .i32⟩
  | .hbm, ⟨100, _⟩ => ⟨S320000x256, .f32⟩
  | .hbm, ⟨101, _⟩ => ⟨S320000x256, .f32⟩
  | .hbm, ⟨102, _⟩ => ⟨S320000x256, .f32⟩
  | .hbm, ⟨103, _⟩ => ⟨S_, .f32⟩
  | .hbm, ⟨104, _⟩ => ⟨S50000x256, .f32⟩
  | .hbm, ⟨105, _⟩ => ⟨S320000x1, .i32⟩
  | .hbm, ⟨106, _⟩ => ⟨S50000x256, .f32⟩
  | .hbm, ⟨107, _⟩ => ⟨S1x256x256, .f32⟩
  | .hbm, ⟨108, _⟩ => ⟨S256x256, .f32⟩
  | .hbm, ⟨109, _⟩ => ⟨S1x256x256, .f32⟩
  | .hbm, ⟨110, _⟩ => ⟨S256x256, .f32⟩
  | .hbm, ⟨111, _⟩ => ⟨S50000x256, .f32⟩
  | .local _ .vmem, ⟨0, _⟩ => ⟨S2000x48, .f32⟩
  | .local _ .vmem, ⟨1, _⟩ => ⟨S2000x48, .f32⟩
  | .local _ .vmem, ⟨2, _⟩ => ⟨S2000x48, .f32⟩
  | .local _ .vmem, ⟨3, _⟩ => ⟨S2000x48, .f32⟩
  | .local _ .vmem, ⟨4, _⟩ => ⟨S48x256, .f32⟩
  | .local _ .vmem, ⟨5, _⟩ => ⟨S48x256, .f32⟩
  | .local _ .vmem, ⟨6, _⟩ => ⟨S256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S256x256, .f32⟩
  | .local _ .vmem, ⟨24, _⟩ => ⟨S256, .f32⟩
  | .local _ .vmem, ⟨25, _⟩ => ⟨S2000x256, .f32⟩
  | .local _ .vmem, ⟨26, _⟩ => ⟨S2000x256, .f32⟩
  | _, _ => ⟨S50000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_c_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S48x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S48x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S50000 : S_.BroadcastsInDim S50000 (![] : Fin 0 → Fin S50000.rank)
  bcast_S320000_S320000x1_0 : S320000.BroadcastsInDim S320000x1 (![0] : Fin 1 → Fin S320000x1.rank)
  bcast_S320000x1_S320000x48_0_1 : S320000x1.BroadcastsInDim S320000x48 (![0, 1] : Fin 2 → Fin S320000x48.rank)
  bcast_S_S50000x48 : S_.BroadcastsInDim S50000x48 (![] : Fin 0 → Fin S50000x48.rank)
  slices_S2x48x256_S1x48x256_0_0_0 : S2x48x256.Slices ![0, 0, 0] S1x48x256
  shapeCasts_S1x48x256_S48x256 : S1x48x256.ShapeCasts S48x256
  slices_S2x48x256_S1x48x256_1_0_0 : S2x48x256.Slices ![1, 0, 0] S1x48x256
  inb_S2000x48_S2000x48_0_0 : ∀ a, (![0, 0] : Fin 2 → Nat) a + S2000x48.size a ≤ S2000x48.size a
  h_S2000x48 : 0 < S2000x48.numel
  bitsLt_bf16_f32 : FTy.bits .bf16 < FTy.bits .f32
  shapeCasts_S2000x48_S2000x48 : S2000x48.ShapeCasts S2000x48
  inb_S48x256_S48x256_0_0 : ∀ a, (![0, 0] : Fin 2 → Nat) a + S48x256.size a ≤ S48x256.size a
  h_S48x256 : 0 < S48x256.numel
  shapeCasts_S48x256_S48x256 : S48x256.ShapeCasts S48x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S320000x1_S320000x256_0_1 : S320000x1.BroadcastsInDim S320000x256 (![0, 1] : Fin 2 → Fin S320000x256.rank)
  bcast_S_S50000x256 : S_.BroadcastsInDim S50000x256 (![] : Fin 0 → Fin S50000x256.rank)
  slices_S2x256x256_S1x256x256_0_0_0 : S2x256x256.Slices ![0, 0, 0] S1x256x256
  shapeCasts_S1x256x256_S256x256 : S1x256x256.ShapeCasts S256x256
  slices_S2x256x256_S1x256x256_1_0_0 : S2x256x256.Slices ![1, 0, 0] S1x256x256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  scatter_S50000_S320000x1_S320000_n_0_0_1_wf : ScatterDims.WF S50000 S320000x1 S320000 [] [0] [0] 1
  gather_S50000_S320000x1_S320000_n_0_n_n_0_1_1_wf : GatherDims.WF S50000 S320000x1 S320000 [] [0] [] [0] [] 1 ![1]
  gather_S50000x48_S320000x1_S320000x48_1_0_n_n_0_1_148_wf : GatherDims.WF S50000x48 S320000x1 S320000x48 [1] [0] [] [0] [] 1 ![1, 48]
  scatter_S50000x48_S320000x1_S320000x48_1_0_0_1_wf : ScatterDims.WF S50000x48 S320000x1 S320000x48 [1] [0] [0] 1
  dot_S2000x48_S48x256_S2000x256_1_0_0_1_n_n_wf : DotDims.WF S2000x48 S48x256 S2000x256 [1] [0] [0] [1] [] []
  gather_S50000x256_S320000x1_S320000x256_1_0_n_n_0_1_1256_wf : GatherDims.WF S50000x256 S320000x1 S320000x256 [1] [0] [] [0] [] 1 ![1, 256]
  scatter_S50000x256_S320000x1_S320000x256_1_0_0_1_wf : ScatterDims.WF S50000x256 S320000x1 S320000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x48.size a ≤ S50000x48.size a
  hwx0_0 : ∀ i : grid0.Coords, EltTy.bits .f32 = 32 ∨ (Rect.block (s := S50000x48) S2000x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x48.size a ≤ S50000x48.size a
  hwx0_1 : ∀ i : grid0.Coords, EltTy.bits .f32 = 32 ∨ (Rect.block (s := S50000x48) S2000x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S48x256.size a ≤ S48x256.size a
  hwx0_2 : ∀ i : grid0.Coords, EltTy.bits .f32 = 32 ∨ (Rect.block (s := S48x256) S48x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S48x256.size a ≤ S48x256.size a
  hwx0_3 : ∀ i : grid0.Coords, EltTy.bits .f32 = 32 ∨ (Rect.block (s := S48x256) S48x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)

variable [Facts₀]

def scatter_S50000_S320000x1_S320000_n_0_0_1 : ScatterDims S50000 S320000x1 S320000 where
  updateWindowDims := []
  insertedWindowDims := [0]
  scatterDimsToOperandDims := [0]
  indexVectorDim := 1
  wf := scatter_S50000_S320000x1_S320000_n_0_0_1_wf
def gather_S50000_S320000x1_S320000_n_0_n_n_0_1_1 : GatherDims S50000 S320000x1 S320000 where
  offsetDims := []
  collapsedSliceDims := [0]
  operandBatchingDims := []
  startIndicesBatchingDims := []
  startIndexMap := [0]
  indexVectorDim := 1
  sliceSizes := ![1]
  wf := gather_S50000_S320000x1_S320000_n_0_n_n_0_1_1_wf
def gather_S50000x48_S320000x1_S320000x48_1_0_n_n_0_1_148 : GatherDims S50000x48 S320000x1 S320000x48 where
  offsetDims := [1]
  collapsedSliceDims := [0]
  operandBatchingDims := []
  startIndicesBatchingDims := []
  startIndexMap := [0]
  indexVectorDim := 1
  sliceSizes := ![1, 48]
  wf := gather_S50000x48_S320000x1_S320000x48_1_0_n_n_0_1_148_wf
def scatter_S50000x48_S320000x1_S320000x48_1_0_0_1 : ScatterDims S50000x48 S320000x1 S320000x48 where
  updateWindowDims := [1]
  insertedWindowDims := [0]
  scatterDimsToOperandDims := [0]
  indexVectorDim := 1
  wf := scatter_S50000x48_S320000x1_S320000x48_1_0_0_1_wf
def dot_S2000x48_S48x256_S2000x256_1_0_0_1_n_n : DotDims S2000x48 S48x256 S2000x256 where
  lhsContracting := [1]
  rhsContracting := [0]
  lhsNonContracting := [0]
  rhsNonContracting := [1]
  lhsBatch := []
  rhsBatch := []
  wf := dot_S2000x48_S48x256_S2000x256_1_0_0_1_n_n_wf
def gather_S50000x256_S320000x1_S320000x256_1_0_n_n_0_1_1256 : GatherDims S50000x256 S320000x1 S320000x256 where
  offsetDims := [1]
  collapsedSliceDims := [0]
  operandBatchingDims := []
  startIndicesBatchingDims := []
  startIndexMap := [0]
  indexVectorDim := 1
  sliceSizes := ![1, 256]
  wf := gather_S50000x256_S320000x1_S320000x256_1_0_n_n_0_1_1256_wf
def scatter_S50000x256_S320000x1_S320000x256_1_0_0_1 : ScatterDims S50000x256 S320000x1 S320000x256 where
  updateWindowDims := [1]
  insertedWindowDims := [0]
  scatterDimsToOperandDims := [0]
  indexVectorDim := 1
  wf := scatter_S50000x256_S320000x1_S320000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S2000x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S48x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S48x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v47) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v62) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v65) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v65) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v78) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v80) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v82) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v83) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x48 : Shape := ⟨2, ![50000, 48]⟩
abbrev S2x320000 : Shape := ⟨2, ![2, 320000]⟩
abbrev S2x48x256 : Shape := ⟨3, ![2, 48, 256]⟩
abbrev S256 : Shape := ⟨1, ![256]⟩
abbrev S2x256x256 : Shape := ⟨3, ![2, 256, 256]⟩
abbrev S1x320000 : Shape := ⟨2, ![1, 320000]⟩
abbrev S320000 : Shape := ⟨1, ![320000]⟩
abbrev S_ : Shape := ⟨0, ![]⟩
abbrev S50000 : Shape := ⟨1, ![50000]⟩
abbrev S320000x1 : Shape := ⟨2, ![320000, 1]⟩
abbrev S320000x48 : Shape := ⟨2, ![320000, 48]⟩
abbrev S1x48x256 : Shape := ⟨3, ![1, 48, 256]⟩
abbrev S48x256 : Shape := ⟨2, ![48, 256]⟩
abbrev S50000x256 : Shape := ⟨2, ![50000, 256]⟩
abbrev S1x256 : Shape := ⟨2, ![1, 256]⟩
abbrev S320000x256 : Shape := ⟨2, ![320000, 256]⟩
abbrev S1x256x256 : Shape := ⟨3, ![1, 256, 256]⟩
abbrev S256x256 : Shape := ⟨2, ![256, 256]⟩

abbrev nBuf : Space → Nat
  | .hbm => 133
  | .vmem => 0
  | .smem => 0
  | _ => 0

abbrev hbmTy0_0 (i : Nat) : BufTy := match i % 128 with
  | 0 => ⟨S50000x48, .f32⟩
  | 1 => ⟨S2x320000, .i32⟩
  | 2 => ⟨S2x48x256, .f32⟩
  | 3 => ⟨S256, .f32⟩
  | 4 => ⟨S2x256x256, .f32⟩
  | 5 => ⟨S256, .f32⟩
  | 6 => ⟨S2x256x256, .f32⟩
  | 7 => ⟨S256, .f32⟩
  | 8 => ⟨S1x320000, .i32⟩
  | 9 => ⟨S320000, .i32⟩
  | 10 => ⟨S1x320000, .i32⟩
  | 11 => ⟨S320000, .i32⟩
  | 12 => ⟨S_, .f32⟩
  | 13 => ⟨S320000, .f32⟩
  | 14 => ⟨S_, .f32⟩
  | 15 => ⟨S50000, .f32⟩
  | 16 => ⟨S320000x1, .i32⟩
  | 17 => ⟨S50000, .f32⟩
  | 18 => ⟨S_, .f32⟩
  | 19 => ⟨S50000, .f32⟩
  | 20 => ⟨S50000, .i1⟩
  | 21 => ⟨S_, .f32⟩
  | 22 => ⟨S50000, .f32⟩
  | 23 => ⟨S50000, .f32⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S320000, .f32⟩
  | 38 => ⟨S320000, .f32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S320000, .f32⟩
  | 48 => ⟨S320000, .f32⟩
  | 49 => ⟨S320000x1, .f32⟩
  | 50 => ⟨S_, .i32⟩
  | 51 => ⟨S320000, .i32⟩
  | 52 => ⟨S320000, .i1⟩
  | 53 => ⟨S_, .i32⟩
  | 54 => ⟨S320000, .i32⟩
  | 55 => ⟨S320000, .i32⟩
  | 56 => ⟨S320000, .i32⟩
  | 57 => ⟨S320000x1, .i32⟩
  | 58 => ⟨S320000x48, .f32⟩
  | 59 => ⟨S320000x48, .f32⟩
  | 60 => ⟨S320000x48, .f32⟩
  | 61 => ⟨S_, .f32⟩
  | 62 => ⟨S50000x48, .f32⟩
  | 63 => ⟨S320000x1, .i32⟩
  | 64 => ⟨S50000x48, .f32⟩
  | 65 => ⟨S1x48x256, .f32⟩
  | 66 => ⟨S48x256, .f32⟩
  | 67 => ⟨S50000x256, .f32⟩
  | 68 => ⟨S1x48x256, .f32⟩
  | 69 => ⟨S48x256, .f32⟩
  | 70 => ⟨S50000x256, .f32⟩
  | 71 => ⟨S50000x256, .f32⟩
  | 72 => ⟨S1x256, .f32⟩
  | 73 => ⟨S50000x256, .f32⟩
  | 74 => ⟨S50000x256, .f32⟩
  | 75 => ⟨S_, .f32⟩
  | 76 => ⟨S50000x256, .f32⟩
  | 77 => ⟨S50000x256, .f32⟩
  | 78 => ⟨S320000x1, .f32⟩
  | 79 => ⟨S_, .i32⟩
  | 80 => ⟨S320000, .i32⟩
  | 81 => ⟨S320000, .i1⟩
  | 82 => ⟨S_, .i32⟩
  | 83 => ⟨S320000, .i32⟩
  | 84 => ⟨S320000, .i32⟩
  | 85 => ⟨S320000, .i32⟩
  | 86 => ⟨S320000x1, .i32⟩
  | 87 => ⟨S320000x256, .f32⟩
  | 88 => ⟨S320000x256, .f32⟩
  | 89 => ⟨S320000x256, .f32⟩
  | 90 => ⟨S_, .f32⟩
  | 91 => ⟨S50000x256, .f32⟩
  | 92 => ⟨S320000x1, .i32⟩
  | 93 => ⟨S50000x256, .f32⟩
  | 94 => ⟨S1x256x256, .f32⟩
  | 95 => ⟨S256x256, .f32⟩
  | 96 => ⟨S50000x256, .f32⟩
  | 97 => ⟨S1x256x256, .f32⟩
  | 98 => ⟨S256x256, .f32⟩
  | 99 => ⟨S50000x256, .f32⟩
  | 100 => ⟨S50000x256, .f32⟩
  | 101 => ⟨S1x256, .f32⟩
  | 102 => ⟨S50000x256, .f32⟩
  | 103 => ⟨S50000x256, .f32⟩
  | 104 => ⟨S_, .f32⟩
  | 105 => ⟨S50000x256, .f32⟩
  | 106 => ⟨S50000x256, .f32⟩
  | 107 => ⟨S320000x1, .f32⟩
  | 108 => ⟨S_, .i32⟩
  | 109 => ⟨S320000, .i32⟩
  | 110 => ⟨S320000, .i1⟩
  | 111 => ⟨S_, .i32⟩
  | 112 => ⟨S320000, .i32⟩
  | 113 => ⟨S320000, .i32⟩
  | 114 => ⟨S320000, .i32⟩
  | 115 => ⟨S320000x1, .i32⟩
  | 116 => ⟨S320000x256, .f32⟩
  | 117 => ⟨S320000x256, .f32⟩
  | 118 => ⟨S320000x256, .f32⟩
  | 119 => ⟨S_, .f32⟩
  | 120 => ⟨S50000x256, .f32⟩
  | 121 => ⟨S320000x1, .i32⟩
  | 122 => ⟨S50000x256, .f32⟩
  | 123 => ⟨S1x256x256, .f32⟩
  | 124 => ⟨S256x256, .f32⟩
  | 125 => ⟨S50000x256, .f32⟩
  | 126 => ⟨S1x256x256, .f32⟩
  | 127 => ⟨S256x256, .f32⟩
  | _ => ⟨S50000x48, .f32⟩

abbrev hbmTy0_1 (i : Nat) : BufTy := match i % 128 with
  | 0 => ⟨S50000x256, .f32⟩
  | 1 => ⟨S50000x256, .f32⟩
  | 2 => ⟨S1x256, .f32⟩
  | 3 => ⟨S50000x256, .f32⟩
  | 4 => ⟨S50000x256, .f32⟩
  | _ => ⟨S50000x48, .f32⟩

abbrev hbmTy (i : Nat) : BufTy := match i / 128 with
  | 0 => hbmTy0_0 i
  | 1 => hbmTy0_1 i
  | _ => ⟨S50000x48, .f32⟩

abbrev bufTy : (tb : Table) → Fin (tcTables nBuf tb) → BufTy
  | .hbm, ⟨i, _⟩ => hbmTy i
  | _, _ => ⟨S50000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call1_cst : Ref sig .tc := ⟨.hbm, 75, rfl⟩
abbrev main_call1_v0 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_call2_cst : Ref sig .tc := ⟨.hbm, 104, rfl⟩
abbrev main_call2_v0 : Ref sig .tc := ⟨.hbm, 105, rfl⟩
abbrev main_v77 : Ref sig .tc := ⟨.hbm, 106, rfl⟩
abbrev main_v78 : Ref sig .tc := ⟨.hbm, 107, rfl⟩
abbrev main_c_13 : Ref sig .tc := ⟨.hbm, 108, rfl⟩
abbrev main_v79 : Ref sig .tc := ⟨.hbm, 109, rfl⟩
abbrev main_v80 : Ref sig .tc := ⟨.hbm, 110, rfl⟩
abbrev main_c_14 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_15 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S50000 : S_.BroadcastsInDim S50000 (![] : Fin 0 → Fin S50000.rank)
  bcast_S320000_S320000x1_0 : S320000.BroadcastsInDim S320000x1 (![0] : Fin 1 → Fin S320000x1.rank)
  bcast_S320000x1_S320000x48_0_1 : S320000x1.BroadcastsInDim S320000x48 (![0, 1] : Fin 2 → Fin S320000x48.rank)
  bcast_S_S50000x48 : S_.BroadcastsInDim S50000x48 (![] : Fin 0 → Fin S50000x48.rank)
  slices_S2x48x256_S1x48x256_0_0_0 : S2x48x256.Slices ![0, 0, 0] S1x48x256
  shapeCasts_S1x48x256_S48x256 : S1x48x256.ShapeCasts S48x256
  slices_S2x48x256_S1x48x256_1_0_0 : S2x48x256.Slices ![1, 0, 0] S1x48x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S320000x1_S320000x256_0_1 : S320000x1.BroadcastsInDim S320000x256 (![0, 1] : Fin 2 → Fin S320000x256.rank)
  slices_S2x256x256_S1x256x256_0_0_0 : S2x256x256.Slices ![0, 0, 0] S1x256x256
  shapeCasts_S1x256x256_S256x256 : S1x256x256.ShapeCasts S256x256
  slices_S2x256x256_S1x256x256_1_0_0 : S2x256x256.Slices ![1, 0, 0] S1x256x256
  scatter_S50000_S320000x1_S320000_n_0_0_1_wf : ScatterDims.WF S50000 S320000x1 S320000 [] [0] [0] 1
  gather_S50000_S320000x1_S320000_n_0_n_n_0_1_1_wf : GatherDims.WF S50000 S320000x1 S320000 [] [0] [] [0] [] 1 ![1]
  gather_S50000x48_S320000x1_S320000x48_1_0_n_n_0_1_148_wf : GatherDims.WF S50000x48 S320000x1 S320000x48 [1] [0] [] [0] [] 1 ![1, 48]
  scatter_S50000x48_S320000x1_S320000x48_1_0_0_1_wf : ScatterDims.WF S50000x48 S320000x1 S320000x48 [1] [0] [0] 1
  dot_S50000x48_S48x256_S50000x256_1_0_0_1_n_n_wf : DotDims.WF S50000x48 S48x256 S50000x256 [1] [0] [0] [1] [] []
  gather_S50000x256_S320000x1_S320000x256_1_0_n_n_0_1_1256_wf : GatherDims.WF S50000x256 S320000x1 S320000x256 [1] [0] [] [0] [] 1 ![1, 256]
  scatter_S50000x256_S320000x1_S320000x256_1_0_0_1_wf : ScatterDims.WF S50000x256 S320000x1 S320000x256 [1] [0] [0] 1
  dot_S50000x256_S256x256_S50000x256_1_0_0_1_n_n_wf : DotDims.WF S50000x256 S256x256 S50000x256 [1] [0] [0] [1] [] []

variable [Facts₀]

def scatter_S50000_S320000x1_S320000_n_0_0_1 : ScatterDims S50000 S320000x1 S320000 where
  updateWindowDims := []
  insertedWindowDims := [0]
  scatterDimsToOperandDims := [0]
  indexVectorDim := 1
  wf := scatter_S50000_S320000x1_S320000_n_0_0_1_wf
def gather_S50000_S320000x1_S320000_n_0_n_n_0_1_1 : GatherDims S50000 S320000x1 S320000 where
  offsetDims := []
  collapsedSliceDims := [0]
  operandBatchingDims := []
  startIndicesBatchingDims := []
  startIndexMap := [0]
  indexVectorDim := 1
  sliceSizes := ![1]
  wf := gather_S50000_S320000x1_S320000_n_0_n_n_0_1_1_wf
def gather_S50000x48_S320000x1_S320000x48_1_0_n_n_0_1_148 : GatherDims S50000x48 S320000x1 S320000x48 where
  offsetDims := [1]
  collapsedSliceDims := [0]
  operandBatchingDims := []
  startIndicesBatchingDims := []
  startIndexMap := [0]
  indexVectorDim := 1
  sliceSizes := ![1, 48]
  wf := gather_S50000x48_S320000x1_S320000x48_1_0_n_n_0_1_148_wf
def scatter_S50000x48_S320000x1_S320000x48_1_0_0_1 : ScatterDims S50000x48 S320000x1 S320000x48 where
  updateWindowDims := [1]
  insertedWindowDims := [0]
  scatterDimsToOperandDims := [0]
  indexVectorDim := 1
  wf := scatter_S50000x48_S320000x1_S320000x48_1_0_0_1_wf
def dot_S50000x48_S48x256_S50000x256_1_0_0_1_n_n : DotDims S50000x48 S48x256 S50000x256 where
  lhsContracting := [1]
  rhsContracting := [0]
  lhsNonContracting := [0]
  rhsNonContracting := [1]
  lhsBatch := []
  rhsBatch := []
  wf := dot_S50000x48_S48x256_S50000x256_1_0_0_1_n_n_wf
def gather_S50000x256_S320000x1_S320000x256_1_0_n_n_0_1_1256 : GatherDims S50000x256 S320000x1 S320000x256 where
  offsetDims := [1]
  collapsedSliceDims := [0]
  operandBatchingDims := []
  startIndicesBatchingDims := []
  startIndexMap := [0]
  indexVectorDim := 1
  sliceSizes := ![1, 256]
  wf := gather_S50000x256_S320000x1_S320000x256_1_0_n_n_0_1_1256_wf
def scatter_S50000x256_S320000x1_S320000x256_1_0_0_1 : ScatterDims S50000x256 S320000x1 S320000x256 where
  updateWindowDims := [1]
  insertedWindowDims := [0]
  scatterDimsToOperandDims := [0]
  indexVectorDim := 1
  wf := scatter_S50000x256_S320000x1_S320000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Boundary.lean ====
/-
  The idealized kernel's whole run, read at its last boundary.

  @main is eight segments: three stretches of host operations, then three times a pallas_call followed by nothing or by
  a stretch of host operations. The contents of the TensorCore's buffers at each boundary are a fold from the launch
  memory: a host stretch applies its operations, a pallas_call replaces its six arrays by what its write-backs leave and
  keeps every other buffer. This module states what every weakly fair execution ends with: EVERY buffer that outlives
  the call holds the last boundary's contents. The value of the result array and the unchanged arguments are both
  readings of that one statement.
-/
import proofs.«177321_j51573967290506_1_alg».proof.Proof.Gen.KernelIdeal.Frame

set_option maxRecDepth 16384

noncomputable section

namespace Cert.KernelIdeal.Boundary

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in its final memory every buffer that
    outlives the call holds the contents of the last boundary of the fold. -/
theorem run_last : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same run, read at the result array and at the eight arguments: the result holds the last boundary's contents
    of its buffer, and no host operation and no pallas_call writes an argument. -/
theorem run_result : θ_run defs (onTc (τ := τ) (main (F := F))) ⟨m, fun _ => 0, ρ⟩ (fun r => ∀ c : Dev nD,
      r.2.mem ((c.tc : Thread nD τ).loc main_v83) = W8 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v83 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)
    (run_last m ρ)

end Cert.KernelIdeal.Boundary

end
-- ==== Proof.Spec.lean ====
/-
  One dense layer of a Chebyshev graph convolution of order two, as ONE function of whole arrays, index by index, on
  the extended reals.

  For node features `a` (one row per node), the propagated features `b` (the normalised adjacency applied to `a`),
  two weight matrices `w0`, `w1` and a bias `β`, entry (p, q) of the layer's affine part is

      Σₖ a[p, k] · w0[k, q]  +  Σₖ b[p, k] · w1[k, q]  +  β[q] ,

  and a hidden layer takes the maximum of that with zero. Both programs compute exactly this, in this grouping: the
  kernel per block of 2000 rows with the matrix unit, the reference on all 50000 rows with two matrix products. Only
  the association of the two sums with the bias is used, so no finiteness of the inputs is needed.
  The first layer contracts over 48 feature columns, the other two over 256.
-/
import Idealize.ShloMosaic.PureOps.Ideal
import Idealize.ShloMosaic.Lib.ValueIdx

noncomputable section

open scoped BigOperators

namespace Cert.Cheb

open Idealize.ShloMosaic Idealize.ShloMosaic.ValueIdx

/-- The maximum with the float zero (kept as its bit pattern: the same word on both sides). -/
def relu (x : EReal) : EReal := max x (Ideal.ofBits .f32 0x00000000#32)

/-- Entry (p, q) of the affine part, 48 feature columns. -/
def affine48 (a b : (⟨2, ![50000, 48]⟩ : Shape).Idx → EReal) (w0 w1 : (⟨2, ![48, 256]⟩ : Shape).Idx → EReal)
    (β : (⟨1, ![256]⟩ : Shape).Idx → EReal) (p : Fin 50000) (q : Fin 256) : EReal :=
  (∑ k : Fin 48, a (ix2 p k) * w0 (ix2 k q)) + (∑ k : Fin 48, b (ix2 p k) * w1 (ix2 k q)) + β (ix1 q)

/-- Entry (p, q) of the affine part, 256 feature columns. -/
def affine256 (a b : (⟨2, ![50000, 256]⟩ : Shape).Idx → EReal) (w0 w1 : (⟨2, ![256, 256]⟩ : Shape).Idx → EReal)
    (β : (⟨1, ![256]⟩ : Shape).Idx → EReal) (p : Fin 50000) (q : Fin 256) : EReal :=
  (∑ k : Fin 256, a (ix2 p k) * w0 (ix2 k q)) + (∑ k : Fin 256, b (ix2 p k) * w1 (ix2 k q)) + β (ix1 q)

/-- The first layer: 48 input columns, rectified. -/
def hidden48 (a b : (⟨2, ![50000, 48]⟩ : Shape).Idx → EReal) (w0 w1 : (⟨2, ![48, 256]⟩ : Shape).Idx → EReal)
    (β : (⟨1, ![256]⟩ : Shape).Idx → EReal) : (⟨2, ![50000, 256]⟩ : Shape).Idx → EReal :=
  fun i => relu (affine48 a b w0 w1 β ⟨(i 0).val, idx2_lt0 i⟩ ⟨(i 1).val, idx2_lt1 i⟩)

/-- The second layer: 256 input columns, rectified. -/
def hidden256 (a b : (⟨2, ![50000, 256]⟩ : Shape).Idx → EReal) (w0 w1 : (⟨2, ![256, 256]⟩ : Shape).Idx → EReal)
    (β : (⟨1, ![256]⟩ : Shape).Idx → EReal) : (⟨2, ![50000, 256]⟩ : Shape).Idx → EReal :=
  fun i => relu (affine256 a b w0 w1 β ⟨(i 0).val, idx2_lt0 i⟩ ⟨(i 1).val, idx2_lt1 i⟩)

/-- The last layer: 256 input columns, not rectified. -/
def last256 (a b : (⟨2, ![50000, 256]⟩ : Shape).Idx → EReal) (w0 w1 : (⟨2, ![256, 256]⟩ : Shape).Idx → EReal)
    (β : (⟨1, ![256]⟩ : Shape).Idx → EReal) : (⟨2, ![50000, 256]⟩ : Shape).Idx → EReal :=
  fun i => affine256 a b w0 w1 β ⟨(i 0).val, idx2_lt0 i⟩ ⟨(i 1).val, idx2_lt1 i⟩

theorem hidden48_ix2 (a b w0 w1 β) (p : Fin 50000) (q : Fin 256) :
    hidden48 a b w0 w1 β (ix2 p q) = relu (affine48 a b w0 w1 β p q) := rfl
theorem hidden256_ix2 (a b w0 w1 β) (p : Fin 50000) (q : Fin 256) :
    hidden256 a b w0 w1 β (ix2 p q) = relu (affine256 a b w0 w1 β p q) := rfl
theorem last256_ix2 (a b w0 w1 β) (p : Fin 50000) (q : Fin 256) :
    last256 a b w0 w1 β (ix2 p q) = affine256 a b w0 w1 β p q := rfl

end Cert.Cheb

end
-- ==== Proof.Glue.lean ====
/-
  The host operations of the graph convolution, named once.

  Around its three pallas_calls the kernel's @main computes, with plain host operations, everything that depends on the
  graph: the source and destination node of each edge, each node's degree (a scatter-add of ones over the sources), its
  inverse square root where the degree is positive and zero elsewhere, the edge weight −d(src)^(−1/2)·d(dst)^(−1/2),
  and, per layer, the propagated features (gather the source rows, scale by the edge weight, scatter-add into the
  destination rows). The reference computes the same things with the same operations. Nothing in this certificate
  depends on WHAT these operations compute — only on both programs applying the same ones to the same operands — so
  they are named here as pure functions of the argument arrays and never opened.
  The three layers composed from them are the value both programs end with.
-/
import proofs.«177321_j51573967290506_1_alg».proof.KernelIdeal
import proofs.«177321_j51573967290506_1_alg».proof.Proof.Gen.KernelIdeal
import proofs.«177321_j51573967290506_1_alg».proof.Proof.Spec

noncomputable section

namespace Cert.KernelIdeal.Glue

open Cert.KernelIdeal Cert.KernelIdeal.Gen Idealize.ShloMosaic

/-- The source node of each edge: row 0 of the edge list. -/
def src (e : IVec S2x320000 32) : IVec S320000 32 :=
  shapeCast S320000 (extractStridedSlice S1x320000 ![0, 0] e slices_S2x320000_S1x320000_0_0) shapeCasts_S1x320000_S320000
/-- The destination node of each edge: row 1 of the edge list. -/
def dst (e : IVec S2x320000 32) : IVec S320000 32 :=
  shapeCast S320000 (extractStridedSlice S1x320000 ![1, 0] e slices_S2x320000_S1x320000_1_0) shapeCasts_S1x320000_S320000

/-- Each node's degree: ones added up over the edges leaving it. -/
def deg (e : IVec S2x320000 32) : FVec Ideal S50000 .f32 :=
  Host.scatterAdd scatter_S50000_S320000x1_S320000_n_0_0_1
    (broadcastInDim S50000 ![] bcast_S_S50000 (constant (F := Ideal) S_ .f32 0x00000000#32))
    (broadcastInDim S320000x1 ![0] bcast_S320000_S320000x1_0 (src e))
    (broadcastInDim S320000 ![] bcast_S_S320000 (constant (F := Ideal) S_ .f32 0x3F800000#32))

/-- The inverse square root of the degree (of at least one) where the degree is positive, zero elsewhere. -/
def dinv (e : IVec S2x320000 32) : FVec Ideal S50000 .f32 :=
  select (cmpf (F := Ideal) .ogt (deg e) (broadcastInDim S50000 ![] bcast_S_S50000 (constant (F := Ideal) S_ .f32 0x00000000#32)))
    (Host.rsqrt (maximumf (deg e) (broadcastInDim S50000 ![] bcast_S_S50000 (constant (F := Ideal) S_ .f32 0x3F800000#32))))
    (broadcastInDim S50000 ![] bcast_S_S50000 (id (constant (F := Ideal) S_ .f32 0x00000000#32)))

/-- A node number read as a position: a negative one counts from the end. -/
def wrap (v : IVec S320000 32) : IVec S320000 32 :=
  select (cmpi .slt v (broadcastInDim S320000 ![] bcast_S_S320000 (constantI S_ 32 0#32)))
    (addi v (broadcastInDim S320000 ![] bcast_S_S320000 (constantI S_ 32 50000#32))) v

/-- The inverse root degree at the nodes `v` names, edge by edge. -/
def take (e : IVec S2x320000 32) (v : IVec S320000 32) : FVec Ideal S320000 .f32 :=
  Host.gather gather_S50000_S320000x1_S320000_n_0_n_n_0_1_1 (dinv e)
    (broadcastInDim S320000x1 ![0] bcast_S320000_S320000x1_0 (wrap v))

/-- The edge weight: minus the product of the two end nodes' inverse root degrees. -/
def weight (e : IVec S2x320000 32) : FVec Ideal S320000 .f32 :=
  mulf (Host.negf (take e (src e))) (take e (dst e))

/-- The propagation of a [50000, 48] feature array: each edge carries its weight times its source node's row, and the
    rows arriving at a node are added up. -/
def prop48 (e : IVec S2x320000 32) (x : FVec Ideal S50000x48 .f32) : FVec Ideal S50000x48 .f32 :=
  Host.scatterAdd scatter_S50000x48_S320000x1_S320000x48_1_0_0_1
    (broadcastInDim S50000x48 ![] bcast_S_S50000x48 (constant (F := Ideal) S_ .f32 0x00000000#32))
    (broadcastInDim S320000x1 ![0] bcast_S320000_S320000x1_0 (dst e))
    (mulf (broadcastInDim S320000x48 ![0, 1] bcast_S320000x1_S320000x48_0_1
            (broadcastInDim S320000x1 ![0] bcast_S320000_S320000x1_0 (weight e)))
          (Host.gather gather_S50000x48_S320000x1_S320000x48_1_0_n_n_0_1_148 x
            (broadcastInDim S320000x1 ![0] bcast_S320000_S320000x1_0 (wrap (src e)))))

/-- The propagation of a [50000, 256] feature array: each edge carries its weight times its source node's row, and the
    rows arriving at a node are added up. -/
def prop256 (e : IVec S2x320000 32) (x : FVec Ideal S50000x256 .f32) : FVec Ideal S50000x256 .f32 :=
  Host.scatterAdd scatter_S50000x256_S320000x1_S320000x256_1_0_0_1
    (broadcastInDim S50000x256 ![] bcast_S_S50000x256 (constant (F := Ideal) S_ .f32 0x00000000#32))
    (broadcastInDim S320000x1 ![0] bcast_S320000_S320000x1_0 (dst e))
    (mulf (broadcastInDim S320000x256 ![0, 1] bcast_S320000x1_S320000x256_0_1
            (broadcastInDim S320000x1 ![0] bcast_S320000_S320000x1_0 (weight e)))
          (Host.gather gather_S50000x256_S320000x1_S320000x256_1_0_n_n_0_1_1256 x
            (broadcastInDim S320000x1 ![0] bcast_S320000_S320000x1_0 (wrap (src e)))))

/-- The first of the two stacked [48, 256] weight matrices. -/
def lo48 (w : FVec Ideal S2x48x256 .f32) : FVec Ideal S48x256 .f32 :=
  shapeCast S48x256 (extractStridedSlice S1x48x256 ![0, 0, 0] w slices_S2x48x256_S1x48x256_0_0_0) shapeCasts_S1x48x256_S48x256
/-- The second of the two stacked [48, 256] weight matrices. -/
def hi48 (w : FVec Ideal S2x48x256 .f32) : FVec Ideal S48x256 .f32 :=
  shapeCast S48x256 (extractStridedSlice S1x48x256 ![1, 0, 0] w slices_S2x48x256_S1x48x256_1_0_0) shapeCasts_S1x48x256_S48x256

/-- The first of the two stacked [256, 256] weight matrices. -/
def lo256 (w : FVec Ideal S2x256x256 .f32) : FVec Ideal S256x256 .f32 :=
  shapeCast S256x256 (extractStridedSlice S1x256x256 ![0, 0, 0] w slices_S2x256x256_S1x256x256_0_0_0) shapeCasts_S1x256x256_S256x256
/-- The second of the two stacked [256, 256] weight matrices. -/
def hi256 (w : FVec Ideal S2x256x256 .f32) : FVec Ideal S256x256 .f32 :=
  shapeCast S256x256 (extractStridedSlice S1x256x256 ![1, 0, 0] w slices_S2x256x256_S1x256x256_1_0_0) shapeCasts_S1x256x256_S256x256

/-- The first hidden layer. -/
def layer1 (x : FVec Ideal S50000x48 .f32) (e : IVec S2x320000 32) (w1 : FVec Ideal S2x48x256 .f32) (b1 : FVec Ideal S256 .f32) :
    FVec Ideal S50000x256 .f32 :=
  Cheb.hidden48 x (prop48 e x) (lo48 w1) (hi48 w1) b1

/-- The second hidden layer, of the first one's result. -/
def layer2 (x : FVec Ideal S50000x48 .f32) (e : IVec S2x320000 32) (w1 : FVec Ideal S2x48x256 .f32) (b1 : FVec Ideal S256 .f32)
    (w2 : FVec Ideal S2x256x256 .f32) (b2 : FVec Ideal S256 .f32) : FVec Ideal S50000x256 .f32 :=
  Cheb.hidden256 (layer1 x e w1 b1) (prop256 e (layer1 x e w1 b1)) (lo256 w2) (hi256 w2) b2

/-- The output layer, of the second one's result. -/
def layer3 (x : FVec Ideal S50000x48 .f32) (e : IVec S2x320000 32) (w1 : FVec Ideal S2x48x256 .f32) (b1 : FVec Ideal S256 .f32)
    (w2 : FVec Ideal S2x256x256 .f32) (b2 : FVec Ideal S256 .f32) (w3 : FVec Ideal S2x256x256 .f32) (b3 : FVec Ideal S256 .f32) :
    FVec Ideal S50000x256 .f32 :=
  Cheb.last256 (layer2 x e w1 b1 w2 b2) (prop256 e (layer2 x e w1 b1 w2 b2)) (lo256 w3) (hi256 w3) b3

end Cert.KernelIdeal.Glue

end
-- ==== Proof.FoldBase.lean ====
/-
  Names for the launch contents of the eight arguments, and the one technical fact the fold needs: the host function
  that selects the inverse root degree where the degree is positive is printed over typed references, whose reads and
  writes are transports along "the buffer's type is the value's type"; each such buffer has that type by computation,
  so each transport is the identity.
-/
import proofs.«177321_j51573967290506_1_alg».proof.Proof.Gen.KernelIdeal.Frame
import proofs.«177321_j51573967290506_1_alg».proof.Proof.Glue
import Idealize.ShloMosaic.Lib.StableHlo.Run

set_option maxRecDepth 65536

noncomputable section

namespace Cert.KernelIdeal.Fold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The launch contents of the arguments: node features, edge list, and per layer two stacked weight matrices and a bias. -/
abbrev a0 (c : Dev nD) : FVec Ideal S50000x48 .f32 := m ((c : Thread nD τ).loc main_arg0)
abbrev a1 (c : Dev nD) : IVec S2x320000 32 := m ((c : Thread nD τ).loc main_arg1)
abbrev a2 (c : Dev nD) : FVec Ideal S2x48x256 .f32 := m ((c : Thread nD τ).loc main_arg2)
abbrev a3 (c : Dev nD) : FVec Ideal S256 .f32 := m ((c : Thread nD τ).loc main_arg3)
abbrev a4 (c : Dev nD) : FVec Ideal S2x256x256 .f32 := m ((c : Thread nD τ).loc main_arg4)
abbrev a5 (c : Dev nD) : FVec Ideal S256 .f32 := m ((c : Thread nD τ).loc main_arg5)
abbrev a6 (c : Dev nD) : FVec Ideal S2x256x256 .f32 := m ((c : Thread nD τ).loc main_arg6)
abbrev a7 (c : Dev nD) : FVec Ideal S256 .f32 := m ((c : Thread nD τ).loc main_arg7)

/-- The three layers of the launch contents. -/
abbrev L1 (c : Dev nD) : FVec Ideal S50000x256 .f32 := Glue.layer1 (a0 m c) (a1 m c) (a2 m c) (a3 m c)
abbrev L2 (c : Dev nD) : FVec Ideal S50000x256 .f32 := Glue.layer2 (a0 m c) (a1 m c) (a2 m c) (a3 m c) (a4 m c) (a5 m c)
abbrev L3 (c : Dev nD) : FVec Ideal S50000x256 .f32 :=
  Glue.layer3 (a0 m c) (a1 m c) (a2 m c) (a3 m c) (a4 m c) (a5 m c) (a6 m c) (a7 m c)

theorem toBuf_call0_v0 (p q r) (v : (⟨S_, .f32⟩ : BufTy).Contents (Elt Ideal)) :
    (TRef.of (T := ⟨S_, .f32⟩) main_call0_v0 p q r).toBuf (Val := Elt Ideal) v = v := rfl
theorem ofBuf_call0_v0 (p q r) (v : (⟨S_, .f32⟩ : BufTy).Contents (Elt Ideal)) :
    (TRef.of (T := ⟨S_, .f32⟩) main_call0_v0 p q r).ofBuf (Val := Elt Ideal) v = v := rfl
theorem toBuf_call0_v1 (p q r) (v : (⟨S50000, .f32⟩ : BufTy).Contents (Elt Ideal)) :
    (TRef.of (T := ⟨S50000, .f32⟩) main_call0_v1 p q r).toBuf (Val := Elt Ideal) v = v := rfl
theorem ofBuf_call0_v1 (p q r) (v : (⟨S50000, .f32⟩ : BufTy).Contents (Elt Ideal)) :
    (TRef.of (T := ⟨S50000, .f32⟩) main_call0_v1 p q r).ofBuf (Val := Elt Ideal) v = v := rfl
theorem ofBuf_cst_3 (p q r) (v : (⟨S_, .f32⟩ : BufTy).Contents (Elt Ideal)) :
    (TRef.of (T := ⟨S_, .f32⟩) main_cst_3 p q r).ofBuf (Val := Elt Ideal) v = v := rfl
theorem ofBuf_v9 (p q r) (v : (⟨S50000, .i1⟩ : BufTy).Contents (Elt Ideal)) :
    (TRef.of (T := ⟨S50000, .i1⟩) main_v9 p q r).ofBuf (Val := Elt Ideal) v = v := rfl
theorem ofBuf_v12 (p q r) (v : (⟨S50000, .f32⟩ : BufTy).Contents (Elt Ideal)) :
    (TRef.of (T := ⟨S50000, .f32⟩) main_v12 p q r).ofBuf (Val := Elt Ideal) v = v := rfl
theorem toBuf_v13 (p q r) (v : (⟨S50000, .f32⟩ : BufTy).Contents (Elt Ideal)) :
    (TRef.of (T := ⟨S50000, .f32⟩) main_v13 p q r).toBuf (Val := Elt Ideal) v = v := rfl

end Cert.KernelIdeal.Fold

end
-- ==== Proof.KernelMatmul.lean ====
/-
  The kernel's matrix products, read at an entry, at the ideal instance.

  One grid point multiplies a block of 2000 rows by a whole weight matrix on the matrix unit, into a zero accumulator.
  On the extended reals that product's entry (p, q) is the plain sum over the contracted axis of row p of the left
  operand times column q of the right one: the contraction has one axis, so its index set is the column numbers.
-/
import proofs.«177321_j51573967290506_1_alg».proof.KernelIdeal
import proofs.«177321_j51573967290506_1_alg».proof.Proof.Gen.KernelIdeal
import Idealize.ShloMosaic.PureOps.Ideal.Laws
import Idealize.ShloMosaic.Lib.ValueIdx

noncomputable section

open scoped BigOperators

namespace Cert.KernelIdeal.Body

open Cert.KernelIdeal Cert.KernelIdeal.Gen Idealize.ShloMosaic Idealize.ShloMosaic.ValueIdx

theorem lhs48_0 (i : S2000x256.Idx) (q : dot_S2000x48_S48x256_S2000x256_1_0_0_1_n_n.contr.Idx) :
    (dot_S2000x48_S48x256_S2000x256_1_0_0_1_n_n.lhsIdx i q 0).val = (i 0).val := by
  unfold DotDims.lhsIdx
  rw [dif_neg (show ¬(0 : Fin S2000x48.rank) ∈ dot_S2000x48_S48x256_S2000x256_1_0_0_1_n_n.lhsBatch by decide), dif_pos (show (0 : Fin S2000x48.rank) ∈ dot_S2000x48_S48x256_S2000x256_1_0_0_1_n_n.lhsNonContracting by decide)]
  rfl
theorem lhs48_1 (i : S2000x256.Idx) (q : dot_S2000x48_S48x256_S2000x256_1_0_0_1_n_n.contr.Idx) :
    (dot_S2000x48_S48x256_S2000x256_1_0_0_1_n_n.lhsIdx i q 1).val = (q ⟨0, by decide⟩).val :=
  dot_S2000x48_S48x256_S2000x256_1_0_0_1_n_n.lhsIdx_val_of_single rfl i q
theorem rhs48_0 (i : S2000x256.Idx) (q : dot_S2000x48_S48x256_S2000x256_1_0_0_1_n_n.contr.Idx) :
    (dot_S2000x48_S48x256_S2000x256_1_0_0_1_n_n.rhsIdx i q 0).val = (q ⟨0, by decide⟩).val :=
  dot_S2000x48_S48x256_S2000x256_1_0_0_1_n_n.rhsIdx_val_of_single rfl i q
theorem rhs48_1 (i : S2000x256.Idx) (q : dot_S2000x48_S48x256_S2000x256_1_0_0_1_n_n.contr.Idx) :
    (dot_S2000x48_S48x256_S2000x256_1_0_0_1_n_n.rhsIdx i q 1).val = (i 1).val := by
  unfold DotDims.rhsIdx
  rw [dif_neg (show ¬(1 : Fin S48x256.rank) ∈ dot_S2000x48_S48x256_S2000x256_1_0_0_1_n_n.rhsBatch by decide), dif_pos (show (1 : Fin S48x256.rank) ∈ dot_S2000x48_S48x256_S2000x256_1_0_0_1_n_n.rhsNonContracting by decide)]
  rfl

/-- Entry (p, q) of the matrix unit's product into a zero accumulator: the sum over the 48 contracted columns. -/
theorem matmul48_at {φ₁ φ₂ : FTy} (l : FVec Ideal S2000x48 φ₁) (r : FVec Ideal S48x256 φ₂) (p : Fin 2000) (q : Fin 256) :
    matmul (F := Ideal) dot_S2000x48_S48x256_S2000x256_1_0_0_1_n_n none l r (constant S2000x256 .f32 0x00000000#32) (ix2 p q)
      = ∑ k : Fin 48, l (ix2 p k) * r (ix2 k q) := by
  show FloatOps.matmul _ _ l r _ _ = _
  rw [Ideal.matmul_constant_zero_apply, ← Equiv.sum_comp (ValueIdx.contrEquiv1 dot_S2000x48_S48x256_S2000x256_1_0_0_1_n_n 48 rfl rfl).symm]
  refine Finset.sum_congr rfl fun k _ => ?_
  have hk := ValueIdx.contrEquiv1_symm_val dot_S2000x48_S48x256_S2000x256_1_0_0_1_n_n 48 rfl rfl k
  have el : dot_S2000x48_S48x256_S2000x256_1_0_0_1_n_n.lhsIdx (ix2 p q) ((ValueIdx.contrEquiv1 dot_S2000x48_S48x256_S2000x256_1_0_0_1_n_n 48 rfl rfl).symm k) = ix2 p k := funext fun a => Fin.ext (by
    match a with
    | ⟨0, _⟩ => exact lhs48_0 _ _
    | ⟨1, _⟩ => exact (lhs48_1 _ _).trans hk)
  have er : dot_S2000x48_S48x256_S2000x256_1_0_0_1_n_n.rhsIdx (ix2 p q) ((ValueIdx.contrEquiv1 dot_S2000x48_S48x256_S2000x256_1_0_0_1_n_n 48 rfl rfl).symm k) = ix2 k q := funext fun a => Fin.ext (by
    match a with
    | ⟨0, _⟩ => exact (rhs48_0 _ _).trans hk
    | ⟨1, _⟩ => exact rhs48_1 _ _)
  rw [el, er]

theorem lhs256_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs256_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs256_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs256_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (p, q) of the matrix unit's product into a zero accumulator: the sum over the 256 contracted columns. -/
theorem matmul256_at {φ₁ φ₂ : FTy} (l : FVec Ideal S2000x256 φ₁) (r : FVec Ideal S256x256 φ₂) (p : Fin 2000) (q : Fin 256) :
    matmul (F := Ideal) dot_S2000x256_S256x256_S2000x256_1_0_0_1_n_n none l r (constant S2000x256 .f32 0x00000000#32) (ix2 p q)
      = ∑ k : Fin 256, l (ix2 p k) * r (ix2 k q) := by
  show FloatOps.matmul _ _ l r _ _ = _
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs256_0 _ _
    | ⟨1, _⟩ => exact (lhs256_1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs256_0 _ _).trans hk
    | ⟨1, _⟩ => exact rhs256_1 _ _)
  rw [el, er]

end Cert.KernelIdeal.Body

end
-- ==== Proof.KernelBody.lean ====
/-
  What one grid point of each pallas_call stores, at an entry of its block.

  Each of the three kernels runs the same body on a block of 2000 rows: both row blocks (the features and the
  propagated features) are multiplied with their weight matrices on the matrix unit, the products are added, the bias
  row is added to every row, and — in the two hidden layers — the maximum with zero is taken. Read at entry (p, q) of
  the block this is the layer's formula on rows of the block; read against the whole arrays, with the block being rows
  n·2000 … n·2000 + 1999, it is the layer's entry at row n·2000 + p.
-/
import proofs.«177321_j51573967290506_1_alg».proof.Proof.Gen.KernelIdeal.Skeleton
import proofs.«177321_j51573967290506_1_alg».proof.Proof.Spec
import proofs.«177321_j51573967290506_1_alg».proof.Proof.KernelMatmul
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx

/-- The bias, a vector of 256, laid out as one row and repeated over the block's 2000 rows, read at (p, q). -/
theorem bias_at (x4 : FVec Ideal S256 .f32) (p : Fin 2000) (q : Fin 256) :
    broadcastTo S2000x256 (shapeCast S1x256 x4 shapeCasts_S256_S1x256) broadcasts_S1x256_S2000x256 (ix2 p q) = x4 (ix1 q) :=
  (broadcastTo_1b_ab_apply _ _ p q).trans (shapeCast_a_1a_apply x4 _ 0 q)

/-- Entry (p, q) of what region 0's body stores: the two products into zero accumulators added, the bias row added, the maximum with zero taken
    (a change of float format and a cast to the same shape are the identity on the extended reals). -/
theorem pay0_at (x0 x1 : FVec Ideal S2000x48 .f32) (x2 x3 : FVec Ideal S48x256 .f32) (x4 : FVec Ideal S256 .f32)
    (p : Fin 2000) (q : Fin 256) :
    k0_pay1 (F := Ideal) x0 x1 x2 x3 x4 (ix2 p q)
      = Cheb.relu ((∑ k : Fin 48, x0 (ix2 p k) * x2 (ix2 k q)) + (∑ k : Fin 48, x1 (ix2 p k) * x3 (ix2 k q)) + x4 (ix1 q)) := by
  unfold k0_pay1
  simp only [shapeCast_self]
  show max (matmul (F := Ideal) dot_S2000x48_S48x256_S2000x256_1_0_0_1_n_n none _ _ _ (ix2 p q)
      + matmul (F := Ideal) dot_S2000x48_S48x256_S2000x256_1_0_0_1_n_n none _ _ _ (ix2 p q)
      + broadcastTo S2000x256 _ _ (ix2 p q)) _ = _
  rw [matmul48_at, matmul48_at, bias_at]
  rfl

/-- Entry (p, q) of what region 1's body stores: the two products into zero accumulators added, the bias row added, the maximum with zero taken
    (a change of float format and a cast to the same shape are the identity on the extended reals). -/
theorem pay1_at (x0 x1 : FVec Ideal S2000x256 .f32) (x2 x3 : FVec Ideal S256x256 .f32) (x4 : FVec Ideal S256 .f32)
    (p : Fin 2000) (q : Fin 256) :
    k1_pay1 (F := Ideal) x0 x1 x2 x3 x4 (ix2 p q)
      = Cheb.relu ((∑ k : Fin 256, x0 (ix2 p k) * x2 (ix2 k q)) + (∑ k : Fin 256, x1 (ix2 p k) * x3 (ix2 k q)) + x4 (ix1 q)) := by
  unfold k1_pay1
  simp only [shapeCast_self]
  show max (matmul (F := Ideal) dot_S2000x256_S256x256_S2000x256_1_0_0_1_n_n none _ _ _ (ix2 p q)
      + matmul (F := Ideal) dot_S2000x256_S256x256_S2000x256_1_0_0_1_n_n none _ _ _ (ix2 p q)
      + broadcastTo S2000x256 _ _ (ix2 p q)) _ = _
  rw [matmul256_at, matmul256_at, bias_at]
  rfl

/-- Entry (p, q) of what region 2's body stores: the two products into zero accumulators added, the bias row added
    (a change of float format and a cast to the same shape are the identity on the extended reals). -/
theorem pay2_at (x0 x1 : FVec Ideal S2000x256 .f32) (x2 x3 : FVec Ideal S256x256 .f32) (x4 : FVec Ideal S256 .f32)
    (p : Fin 2000) (q : Fin 256) :
    k2_pay1 (F := Ideal) x0 x1 x2 x3 x4 (ix2 p q)
      = ((∑ k : Fin 256, x0 (ix2 p k) * x2 (ix2 k q)) + (∑ k : Fin 256, x1 (ix2 p k) * x3 (ix2 k q)) + x4 (ix1 q)) := by
  unfold k2_pay1
  simp only [shapeCast_self]
  show (matmul (F := Ideal) dot_S2000x256_S256x256_S2000x256_1_0_0_1_n_n none _ _ _ (ix2 p q)
      + matmul (F := Ideal) dot_S2000x256_S256x256_S2000x256_1_0_0_1_n_n none _ _ _ (ix2 p q)
      + broadcastTo S2000x256 _ _ (ix2 p q)) = _
  rw [matmul256_at, matmul256_at, bias_at]
  rfl

/-- One grid point of region 0, over plain variables: if the two row blocks the body loads are rows `n·2000 …` of the
    arrays `A`, `B` and the other three blocks are the whole arrays `W0`, `W1`, `β`, then what the body stores at
    `j` is the layer's entry at row `n·2000 + j₀`, column `j₁`. -/
theorem point0 (x0 x1 : FVec Ideal S2000x48 .f32) (x2 x3 : FVec Ideal S48x256 .f32) (x4 : FVec Ideal S256 .f32)
    (A B : S50000x48.Idx → EReal) (W0 W1 : S48x256.Idx → EReal) (β : S256.Idx → EReal)
    (n : Nat) (j : S2000x256.Idx) (i : S50000x256.Idx)
    (hi0 : (i 0).val = n * 2000 + (j 0).val) (hi1 : (i 1).val = (j 1).val)
    (h0 : ∀ (y : S2000x48.Idx) (z : S50000x48.Idx), (z 0).val = n * 2000 + (y 0).val → (z 1).val = (y 1).val → x0 y = A z)
    (h1 : ∀ (y : S2000x48.Idx) (z : S50000x48.Idx), (z 0).val = n * 2000 + (y 0).val → (z 1).val = (y 1).val → x1 y = B z)
    (h2 : x2 = W0) (h3 : x3 = W1) (h4 : x4 = β) :
    k0_pay1 (F := Ideal) x0 x1 x2 x3 x4 j = Cheb.hidden48 A B W0 W1 β i := by
  subst h2 h3 h4
  obtain ⟨p, q, rfl⟩ : ∃ (p : Fin 2000) (q : Fin 256), j = ix2 p q := ⟨j 0, j 1, eq_ix2 j⟩
  obtain ⟨P, Q, rfl⟩ : ∃ (P : Fin 50000) (Q : Fin 256), i = ix2 P Q := ⟨i 0, i 1, eq_ix2 i⟩
  have hP : P.val = n * 2000 + p.val := hi0
  obtain rfl : Q = q := Fin.ext hi1
  have e0 : (∑ k : Fin 48, x0 (ix2 p k) * x2 (ix2 k Q)) = ∑ k : Fin 48, A (ix2 P k) * x2 (ix2 k Q) :=
    Finset.sum_congr rfl fun k _ => by rw [h0 (ix2 p k) (ix2 P k) hP rfl]
  have e1 : (∑ k : Fin 48, x1 (ix2 p k) * x3 (ix2 k Q)) = ∑ k : Fin 48, B (ix2 P k) * x3 (ix2 k Q) :=
    Finset.sum_congr rfl fun k _ => by rw [h1 (ix2 p k) (ix2 P k) hP rfl]
  rw [pay0_at, Cheb.hidden48_ix2, e0, e1]
  rfl

/-- One grid point of region 1, over plain variables: if the two row blocks the body loads are rows `n·2000 …` of the
    arrays `A`, `B` and the other three blocks are the whole arrays `W0`, `W1`, `β`, then what the body stores at
    `j` is the layer's entry at row `n·2000 + j₀`, column `j₁`. -/
theorem point1 (x0 x1 : FVec Ideal S2000x256 .f32) (x2 x3 : FVec Ideal S256x256 .f32) (x4 : FVec Ideal S256 .f32)
    (A B : S50000x256.Idx → EReal) (W0 W1 : S256x256.Idx → EReal) (β : S256.Idx → EReal)
    (n : Nat) (j : S2000x256.Idx) (i : S50000x256.Idx)
    (hi0 : (i 0).val = n * 2000 + (j 0).val) (hi1 : (i 1).val = (j 1).val)
    (h0 : ∀ (y : S2000x256.Idx) (z : S50000x256.Idx), (z 0).val = n * 2000 + (y 0).val → (z 1).val = (y 1).val → x0 y = A z)
    (h1 : ∀ (y : S2000x256.Idx) (z : S50000x256.Idx), (z 0).val = n * 2000 + (y 0).val → (z 1).val = (y 1).val → x1 y = B z)
    (h2 : x2 = W0) (h3 : x3 = W1) (h4 : x4 = β) :
    k1_pay1 (F := Ideal) x0 x1 x2 x3 x4 j = Cheb.hidden256 A B W0 W1 β i := by
  subst h2 h3 h4
  obtain ⟨p, q, rfl⟩ : ∃ (p : Fin 2000) (q : Fin 256), j = ix2 p q := ⟨j 0, j 1, eq_ix2 j⟩
  obtain ⟨P, Q, rfl⟩ : ∃ (P : Fin 50000) (Q : Fin 256), i = ix2 P Q := ⟨i 0, i 1, eq_ix2 i⟩
  have hP : P.val = n * 2000 + p.val := hi0
  obtain rfl : Q = q := Fin.ext hi1
  have e0 : (∑ k : Fin 256, x0 (ix2 p k) * x2 (ix2 k Q)) = ∑ k : Fin 256, A (ix2 P k) * x2 (ix2 k Q) :=
    Finset.sum_congr rfl fun k _ => by rw [h0 (ix2 p k) (ix2 P k) hP rfl]
  have e1 : (∑ k : Fin 256, x1 (ix2 p k) * x3 (ix2 k Q)) = ∑ k : Fin 256, B (ix2 P k) * x3 (ix2 k Q) :=
    Finset.sum_congr rfl fun k _ => by rw [h1 (ix2 p k) (ix2 P k) hP rfl]
  rw [pay1_at, Cheb.hidden256_ix2, e0, e1]
  rfl

/-- One grid point of region 2, over plain variables: if the two row blocks the body loads are rows `n·2000 …` of the
    arrays `A`, `B` and the other three blocks are the whole arrays `W0`, `W1`, `β`, then what the body stores at
    `j` is the layer's entry at row `n·2000 + j₀`, column `j₁`. -/
theorem point2 (x0 x1 : FVec Ideal S2000x256 .f32) (x2 x3 : FVec Ideal S256x256 .f32) (x4 : FVec Ideal S256 .f32)
    (A B : S50000x256.Idx → EReal) (W0 W1 : S256x256.Idx → EReal) (β : S256.Idx → EReal)
    (n : Nat) (j : S2000x256.Idx) (i : S50000x256.Idx)
    (hi0 : (i 0).val = n * 2000 + (j 0).val) (hi1 : (i 1).val = (j 1).val)
    (h0 : ∀ (y : S2000x256.Idx) (z : S50000x256.Idx), (z 0).val = n * 2000 + (y 0).val → (z 1).val = (y 1).val → x0 y = A z)
    (h1 : ∀ (y : S2000x256.Idx) (z : S50000x256.Idx), (z 0).val = n * 2000 + (y 0).val → (z 1).val = (y 1).val → x1 y = B z)
    (h2 : x2 = W0) (h3 : x3 = W1) (h4 : x4 = β) :
    k2_pay1 (F := Ideal) x0 x1 x2 x3 x4 j = Cheb.last256 A B W0 W1 β i := by
  subst h2 h3 h4
  obtain ⟨p, q, rfl⟩ : ∃ (p : Fin 2000) (q : Fin 256), j = ix2 p q := ⟨j 0, j 1, eq_ix2 j⟩
  obtain ⟨P, Q, rfl⟩ : ∃ (P : Fin 50000) (Q : Fin 256), i = ix2 P Q := ⟨i 0, i 1, eq_ix2 i⟩
  have hP : P.val = n * 2000 + p.val := hi0
  obtain rfl : Q = q := Fin.ext hi1
  have e0 : (∑ k : Fin 256, x0 (ix2 p k) * x2 (ix2 k Q)) = ∑ k : Fin 256, A (ix2 P k) * x2 (ix2 k Q) :=
    Finset.sum_congr rfl fun k _ => by rw [h0 (ix2 p k) (ix2 P k) hP rfl]
  have e1 : (∑ k : Fin 256, x1 (ix2 p k) * x3 (ix2 k Q)) = ∑ k : Fin 256, B (ix2 P k) * x3 (ix2 k Q) :=
    Finset.sum_congr rfl fun k _ => by rw [h1 (ix2 p k) (ix2 P k) hP rfl]
  rw [pay2_at, Cheb.last256_ix2, e0, e1]
  rfl

end Cert.KernelIdeal.Body

end
-- ==== Proof.Regions.lean ====
/-
  Each pallas_call's output array, as one function of the arrays the call finds.

  A call runs its body at 25 grid points. At point t the body sees rows t·2000 … t·2000 + 1999 of the feature array and
  of the propagated-feature array, the whole of both weight matrices and of the bias, and writes rows t·2000 … of the
  output. Block t of what is written is therefore block t of the layer function of the WHOLE arrays, the 25 blocks
  tile the 50000 rows, and the output array ends holding the layer function of the call's entry arrays — whatever
  those entry arrays are (they are a parameter here; the run instantiates them per call).
-/
import proofs.«177321_j51573967290506_1_alg».proof.Proof.Gen.KernelIdeal.Frame
import proofs.«177321_j51573967290506_1_alg».proof.Proof.KernelBody
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## Region 0 -/

/-- The printed index maps of region 0, decided over its 25 grid points: the two row windows and the output move with
    the point along the rows, the weights and the bias stay at their one block. -/
theorem idx0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Input window 0's block at point `t` is rows `t·2000 …` of its array. -/
theorem rows0_0 (c : Dev nD) (t : Fin cfg0.N) (y : S2000x48.Idx) (z : S50000x48.Idx)
    (h0 : (z 0).val = t.val * 2000 + (y 0).val) (h1 : (z 1).val = (y 1).val) :
    (iblk0 V c 0 t : FVec Ideal S2000x48 .f32) y = (V c main_arg0 : S50000x48.Idx → EReal) z := by
  have e0 : win0_0.index t (0 : Fin 2) = t.val := by have := idx0 t; simp only [this]
  have e1 : win0_0.index t (1 : Fin 2) = 0 := by have := idx0 t; simp only [this]
  unfold iblk0
  rw [View.read_apply]
  show (V c main_arg0 : S50000x48.Idx → EReal) (((cfg0.win 0).blk t).view.emb y) = (V c main_arg0 : S50000x48.Idx → EReal) z
  refine congrArg _ ?_
  funext a
  apply Fin.ext
  match a with
  | ⟨0, _⟩ => show win0_0.index t (0 : Fin 2) * 2000 + 1 * (y 0).val = (z 0).val; rw [e0, h0]; omega
  | ⟨1, _⟩ => show win0_0.index t (1 : Fin 2) * 48 + 1 * (y 1).val = (z 1).val; rw [e1, h1]; omega

/-- Input window 1's block at point `t` is rows `t·2000 …` of its array. -/
theorem rows0_1 (c : Dev nD) (t : Fin cfg0.N) (y : S2000x48.Idx) (z : S50000x48.Idx)
    (h0 : (z 0).val = t.val * 2000 + (y 0).val) (h1 : (z 1).val = (y 1).val) :
    (iblk0 V c 1 t : FVec Ideal S2000x48 .f32) y = (V c main_v42 : S50000x48.Idx → EReal) z := by
  have e0 : win0_1.index t (0 : Fin 2) = t.val := by have := idx0 t; simp only [this]
  have e1 : win0_1.index t (1 : Fin 2) = 0 := by have := idx0 t; simp only [this]
  unfold iblk0
  rw [View.read_apply]
  show (V c main_v42 : S50000x48.Idx → EReal) (((cfg0.win 1).blk t).view.emb y) = (V c main_v42 : S50000x48.Idx → EReal) z
  refine congrArg _ ?_
  funext a
  apply Fin.ext
  match a with
  | ⟨0, _⟩ => show win0_1.index t (0 : Fin 2) * 2000 + 1 * (y 0).val = (z 0).val; rw [e0, h0]; omega
  | ⟨1, _⟩ => show win0_1.index t (1 : Fin 2) * 48 + 1 * (y 1).val = (z 1).val; rw [e1, h1]; omega

/-- Input window 2 is one block, the whole weight matrix, at every point. -/
theorem whole0_2 (c : Dev nD) (t : Fin cfg0.N) :
    (iblk0 V c 2 t : FVec Ideal S48x256 .f32) = (V c main_v44 : S48x256.Idx → EReal) := by
  have e0 : win0_2.index t (0 : Fin 2) = 0 := by have := idx0 t; simp only [this]
  have e1 : win0_2.index t (1 : Fin 2) = 0 := by have := idx0 t; simp only [this]
  funext y
  unfold iblk0
  rw [View.read_apply]
  show (V c main_v44 : S48x256.Idx → EReal) (((cfg0.win 2).blk t).view.emb y) = (V c main_v44 : S48x256.Idx → EReal) y
  refine congrArg _ ?_
  funext a
  apply Fin.ext
  match a with
  | ⟨0, _⟩ => show win0_2.index t (0 : Fin 2) * 48 + 1 * (y 0).val = (y 0).val; rw [e0]; omega
  | ⟨1, _⟩ => show win0_2.index t (1 : Fin 2) * 256 + 1 * (y 1).val = (y 1).val; rw [e1]; omega

/-- Input window 3 is one block, the whole weight matrix, at every point. -/
theorem whole0_3 (c : Dev nD) (t : Fin cfg0.N) :
    (iblk0 V c 3 t : FVec Ideal S48x256 .f32) = (V c main_v46 : S48x256.Idx → EReal) := by
  have e0 : win0_3.index t (0 : Fin 2) = 0 := by have := idx0 t; simp only [this]
  have e1 : win0_3.index t (1 : Fin 2) = 0 := by have := idx0 t; simp only [this]
  funext y
  unfold iblk0
  rw [View.read_apply]
  show (V c main_v46 : S48x256.Idx → EReal) (((cfg0.win 3).blk t).view.emb y) = (V c main_v46 : S48x256.Idx → EReal) y
  refine congrArg _ ?_
  funext a
  apply Fin.ext
  match a with
  | ⟨0, _⟩ => show win0_3.index t (0 : Fin 2) * 48 + 1 * (y 0).val = (y 0).val; rw [e0]; omega
  | ⟨1, _⟩ => show win0_3.index t (1 : Fin 2) * 256 + 1 * (y 1).val = (y 1).val; rw [e1]; omega

/-- Input window 4 is one block, the whole bias vector, at every point. -/
theorem whole0_4 (c : Dev nD) (t : Fin cfg0.N) :
    (iblk0 V c 4 t : FVec Ideal S256 .f32) = (V c main_arg3 : S256.Idx → EReal) := by
  have e0 : win0_4.index t (0 : Fin 1) = 0 := by have := idx0 t; simp only [this]
  funext y
  unfold iblk0
  rw [View.read_apply]
  show (V c main_arg3 : S256.Idx → EReal) (((cfg0.win 4).blk t).view.emb y) = (V c main_arg3 : S256.Idx → EReal) y
  refine congrArg _ ?_
  funext a
  apply Fin.ext
  match a with
  | ⟨0, _⟩ => show win0_4.index t (0 : Fin 1) * 256 + 1 * (y 0).val = (y 0).val; rw [e0]; omega

/-- WHAT POINT `t` WRITES BACK is block `t` of the layer function of the arrays as the region finds them. -/
theorem flushed0 (c : Dev nD) (t : Fin cfg0.N) :
    (dat0 V c).flushed 5 t = ((cfg0.win 5).blk t).view.read (Elt Ideal)
      (Cheb.hidden48 (V c main_arg0) (V c main_v42) (V c main_v44) (V c main_v46) (V c main_arg3)) := by
  have e0 : win0_5.index t (0 : Fin 2) = t.val := by have := idx0 t; simp only [this]
  have e1 : win0_5.index t (1 : Fin 2) = 0 := by have := idx0 t; simp only [this]
  show (cfg0.win 5).cut (grid0.coords t) ((dat0 V c).after 5 t) = _
  rw [after0_5]
  unfold out0_5
  rw [View.canon_unit_zero hz2]
  simp only [View.ld_unit_zero (S := S2000x48) hz2, View.ld_unit_zero (S := S48x256) hz2, View.ld_unit_zero (S := S256) hz1]
  funext j
  rw [View.read_apply]
  refine Body.point0 (iblk0 V c 0 t) (iblk0 V c 1 t) (iblk0 V c 2 t) (iblk0 V c 3 t) (iblk0 V c 4 t)
    (V c main_arg0) (V c main_v42) (V c main_v44) (V c main_v46) (V c main_arg3) t.val j (((cfg0.win 5).blk t).view.emb j) ?_ ?_
    (fun y z h0 h1 => rows0_0 V c t y z h0 h1) (fun y z h0 h1 => rows0_1 V c t y z h0 h1)
    (whole0_2 V c t) (whole0_3 V c t) (whole0_4 V c t)
  · show win0_5.index t (0 : Fin 2) * 2000 + 1 * (j 0).val = t.val * 2000 + (j 0).val; rw [e0]; omega
  · show win0_5.index t (1 : Fin 2) * 256 + 1 * (j 1).val = (j 1).val; rw [e1]; omega

/-- An index of the output array is in point `t`'s block iff each coordinate is in the block's range on its axis. -/
theorem mem_blk0 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v47).slice (win0_5.rect t)).set ↔ _
  rw [View.set_slice_whole, Rect.mem_set_unit]
  exact Iff.rfl

/-- THE ARRAY after the region: the 25 blocks of 2000 rows tile its 50000 rows (row `r` is in block `r / 2000`), so it
    ends holding the layer function of the region's entry arrays. -/
theorem final0 (c : Dev nD) : (dat0 V c).arrAt 5 cfg0.N
    = Cheb.hidden48 (V c main_arg0) (V c main_v42) (V c main_v44) (V c main_v46) (V c main_arg3) :=
  (dat0 V c).arrAt_eq_of_cover 5 _ (fun t _ => flushed0 V c t) fun i => by
    have hN : cfg0.N = 25 := N_0
    have hi0 : ((i 0 : Fin _) : Nat) < 50000 := (i 0).isLt
    have hi1 : ((i 1 : Fin _) : Nat) < 256 := (i 1).isLt
    obtain ⟨t, ht⟩ : ∃ t : Fin cfg0.N, t.val = (i 0).val / 2000 := ⟨⟨(i 0).val / 2000, by rw [hN]; omega⟩, rfl⟩
    have e0 : win0_5.index t (0 : Fin 2) = t.val := by have := idx0 t; simp only [this]
    have e1 : win0_5.index t (1 : Fin 2) = 0 := by have := idx0 t; simp only [this]
    refine ⟨t, flush0_5 t, ?_⟩
    rw [mem_blk0]
    intro a
    match a with
    | ⟨0, _⟩ => show win0_5.index t (0 : Fin 2) * 2000 ≤ (i 0).val ∧ (i 0).val < win0_5.index t (0 : Fin 2) * 2000 + 2000; rw [e0, ht]; omega
    | ⟨1, _⟩ => show win0_5.index t (1 : Fin 2) * 256 ≤ (i 1).val ∧ (i 1).val < win0_5.index t (1 : Fin 2) * 256 + 256; rw [e1]; omega

/-! ## Region 1 -/

/-- The printed index maps of region 1, decided over its 25 grid points: the two row windows and the output move with
    the point along the rows, the weights and the bias stay at their one block. -/
theorem idx1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Input window 0's block at point `t` is rows `t·2000 …` of its array. -/
theorem rows1_0 (c : Dev nD) (t : Fin cfg1.N) (y : S2000x256.Idx) (z : S50000x256.Idx)
    (h0 : (z 0).val = t.val * 2000 + (y 0).val) (h1 : (z 1).val = (y 1).val) :
    (iblk1 V c 0 t : FVec Ideal S2000x256 .f32) y = (V c main_v47 : S50000x256.Idx → EReal) z := by
  have e0 : win1_0.index t (0 : Fin 2) = t.val := by have := idx1 t; simp only [this]
  have e1 : win1_0.index t (1 : Fin 2) = 0 := by have := idx1 t; simp only [this]
  unfold iblk1
  rw [View.read_apply]
  show (V c main_v47 : S50000x256.Idx → EReal) (((cfg1.win 0).blk t).view.emb y) = (V c main_v47 : S50000x256.Idx → EReal) z
  refine congrArg _ ?_
  funext a
  apply Fin.ext
  match a with
  | ⟨0, _⟩ => show win1_0.index t (0 : Fin 2) * 2000 + 1 * (y 0).val = (z 0).val; rw [e0, h0]; omega
  | ⟨1, _⟩ => show win1_0.index t (1 : Fin 2) * 256 + 1 * (y 1).val = (z 1).val; rw [e1, h1]; omega

/-- Input window 1's block at point `t` is rows `t·2000 …` of its array. -/
theorem rows1_1 (c : Dev nD) (t : Fin cfg1.N) (y : S2000x256.Idx) (z : S50000x256.Idx)
    (h0 : (z 0).val = t.val * 2000 + (y 0).val) (h1 : (z 1).val = (y 1).val) :
    (iblk1 V c 1 t : FVec Ideal S2000x256 .f32) y = (V c main_v60 : S50000x256.Idx → EReal) z := by
  have e0 : win1_1.index t (0 : Fin 2) = t.val := by have := idx1 t; simp only [this]
  have e1 : win1_1.index t (1 : Fin 2) = 0 := by have := idx1 t; simp only [this]
  unfold iblk1
  rw [View.read_apply]
  show (V c main_v60 : S50000x256.Idx → EReal) (((cfg1.win 1).blk t).view.emb y) = (V c main_v60 : S50000x256.Idx → EReal) z
  refine congrArg _ ?_
  funext a
  apply Fin.ext
  match a with
  | ⟨0, _⟩ => show win1_1.index t (0 : Fin 2) * 2000 + 1 * (y 0).val = (z 0).val; rw [e0, h0]; omega
  | ⟨1, _⟩ => show win1_1.index t (1 : Fin 2) * 256 + 1 * (y 1).val = (z 1).val; rw [e1, h1]; omega

/-- Input window 2 is one block, the whole weight matrix, at every point. -/
theorem whole1_2 (c : Dev nD) (t : Fin cfg1.N) :
    (iblk1 V c 2 t : FVec Ideal S256x256 .f32) = (V c main_v62 : S256x256.Idx → EReal) := by
  have e0 : win1_2.index t (0 : Fin 2) = 0 := by have := idx1 t; simp only [this]
  have e1 : win1_2.index t (1 : Fin 2) = 0 := by have := idx1 t; simp only [this]
  funext y
  unfold iblk1
  rw [View.read_apply]
  show (V c main_v62 : S256x256.Idx → EReal) (((cfg1.win 2).blk t).view.emb y) = (V c main_v62 : S256x256.Idx → EReal) y
  refine congrArg _ ?_
  funext a
  apply Fin.ext
  match a with
  | ⟨0, _⟩ => show win1_2.index t (0 : Fin 2) * 256 + 1 * (y 0).val = (y 0).val; rw [e0]; omega
  | ⟨1, _⟩ => show win1_2.index t (1 : Fin 2) * 256 + 1 * (y 1).val = (y 1).val; rw [e1]; omega

/-- Input window 3 is one block, the whole weight matrix, at every point. -/
theorem whole1_3 (c : Dev nD) (t : Fin cfg1.N) :
    (iblk1 V c 3 t : FVec Ideal S256x256 .f32) = (V c main_v64 : S256x256.Idx → EReal) := by
  have e0 : win1_3.index t (0 : Fin 2) = 0 := by have := idx1 t; simp only [this]
  have e1 : win1_3.index t (1 : Fin 2) = 0 := by have := idx1 t; simp only [this]
  funext y
  unfold iblk1
  rw [View.read_apply]
  show (V c main_v64 : S256x256.Idx → EReal) (((cfg1.win 3).blk t).view.emb y) = (V c main_v64 : S256x256.Idx → EReal) y
  refine congrArg _ ?_
  funext a
  apply Fin.ext
  match a with
  | ⟨0, _⟩ => show win1_3.index t (0 : Fin 2) * 256 + 1 * (y 0).val = (y 0).val; rw [e0]; omega
  | ⟨1, _⟩ => show win1_3.index t (1 : Fin 2) * 256 + 1 * (y 1).val = (y 1).val; rw [e1]; omega

/-- Input window 4 is one block, the whole bias vector, at every point. -/
theorem whole1_4 (c : Dev nD) (t : Fin cfg1.N) :
    (iblk1 V c 4 t : FVec Ideal S256 .f32) = (V c main_arg5 : S256.Idx → EReal) := by
  have e0 : win1_4.index t (0 : Fin 1) = 0 := by have := idx1 t; simp only [this]
  funext y
  unfold iblk1
  rw [View.read_apply]
  show (V c main_arg5 : S256.Idx → EReal) (((cfg1.win 4).blk t).view.emb y) = (V c main_arg5 : S256.Idx → EReal) y
  refine congrArg _ ?_
  funext a
  apply Fin.ext
  match a with
  | ⟨0, _⟩ => show win1_4.index t (0 : Fin 1) * 256 + 1 * (y 0).val = (y 0).val; rw [e0]; omega

/-- WHAT POINT `t` WRITES BACK is block `t` of the layer function of the arrays as the region finds them. -/
theorem flushed1 (c : Dev nD) (t : Fin cfg1.N) :
    (dat1 V c).flushed 5 t = ((cfg1.win 5).blk t).view.read (Elt Ideal)
      (Cheb.hidden256 (V c main_v47) (V c main_v60) (V c main_v62) (V c main_v64) (V c main_arg5)) := by
  have e0 : win1_5.index t (0 : Fin 2) = t.val := by have := idx1 t; simp only [this]
  have e1 : win1_5.index t (1 : Fin 2) = 0 := by have := idx1 t; simp only [this]
  show (cfg1.win 5).cut (grid1.coords t) ((dat1 V c).after 5 t) = _
  rw [after1_5]
  unfold out1_5
  rw [View.canon_unit_zero hz2]
  simp only [View.ld_unit_zero (S := S2000x256) hz2, View.ld_unit_zero (S := S256x256) hz2, View.ld_unit_zero (S := S256) hz1]
  funext j
  rw [View.read_apply]
  refine Body.point1 (iblk1 V c 0 t) (iblk1 V c 1 t) (iblk1 V c 2 t) (iblk1 V c 3 t) (iblk1 V c 4 t)
    (V c main_v47) (V c main_v60) (V c main_v62) (V c main_v64) (V c main_arg5) t.val j (((cfg1.win 5).blk t).view.emb j) ?_ ?_
    (fun y z h0 h1 => rows1_0 V c t y z h0 h1) (fun y z h0 h1 => rows1_1 V c t y z h0 h1)
    (whole1_2 V c t) (whole1_3 V c t) (whole1_4 V c t)
  · show win1_5.index t (0 : Fin 2) * 2000 + 1 * (j 0).val = t.val * 2000 + (j 0).val; rw [e0]; omega
  · show win1_5.index t (1 : Fin 2) * 256 + 1 * (j 1).val = (j 1).val; rw [e1]; omega

/-- An index of the output array is in point `t`'s block iff each coordinate is in the block's range on its axis. -/
theorem mem_blk1 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v65).slice (win1_5.rect t)).set ↔ _
  rw [View.set_slice_whole, Rect.mem_set_unit]
  exact Iff.rfl

/-- THE ARRAY after the region: the 25 blocks of 2000 rows tile its 50000 rows (row `r` is in block `r / 2000`), so it
    ends holding the layer function of the region's entry arrays. -/
theorem final1 (c : Dev nD) : (dat1 V c).arrAt 5 cfg1.N
    = Cheb.hidden256 (V c main_v47) (V c main_v60) (V c main_v62) (V c main_v64) (V c main_arg5) :=
  (dat1 V c).arrAt_eq_of_cover 5 _ (fun t _ => flushed1 V c t) fun i => by
    have hN : cfg1.N = 25 := N_1
    have hi0 : ((i 0 : Fin _) : Nat) < 50000 := (i 0).isLt
    have hi1 : ((i 1 : Fin _) : Nat) < 256 := (i 1).isLt
    obtain ⟨t, ht⟩ : ∃ t : Fin cfg1.N, t.val = (i 0).val / 2000 := ⟨⟨(i 0).val / 2000, by rw [hN]; omega⟩, rfl⟩
    have e0 : win1_5.index t (0 : Fin 2) = t.val := by have := idx1 t; simp only [this]
    have e1 : win1_5.index t (1 : Fin 2) = 0 := by have := idx1 t; simp only [this]
    refine ⟨t, flush1_5 t, ?_⟩
    rw [mem_blk1]
    intro a
    match a with
    | ⟨0, _⟩ => show win1_5.index t (0 : Fin 2) * 2000 ≤ (i 0).val ∧ (i 0).val < win1_5.index t (0 : Fin 2) * 2000 + 2000; rw [e0, ht]; omega
    | ⟨1, _⟩ => show win1_5.index t (1 : Fin 2) * 256 ≤ (i 1).val ∧ (i 1).val < win1_5.index t (1 : Fin 2) * 256 + 256; rw [e1]; omega

/-! ## Region 2 -/

/-- The printed index maps of region 2, decided over its 25 grid points: the two row windows and the output move with
    the point along the rows, the weights and the bias stay at their one block. -/
theorem idx2 : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Input window 0's block at point `t` is rows `t·2000 …` of its array. -/
theorem rows2_0 (c : Dev nD) (t : Fin cfg2.N) (y : S2000x256.Idx) (z : S50000x256.Idx)
    (h0 : (z 0).val = t.val * 2000 + (y 0).val) (h1 : (z 1).val = (y 1).val) :
    (iblk2 V c 0 t : FVec Ideal S2000x256 .f32) y = (V c main_v65 : S50000x256.Idx → EReal) z := by
  have e0 : win2_0.index t (0 : Fin 2) = t.val := by have := idx2 t; simp only [this]
  have e1 : win2_0.index t (1 : Fin 2) = 0 := by have := idx2 t; simp only [this]
  unfold iblk2
  rw [View.read_apply]
  show (V c main_v65 : S50000x256.Idx → EReal) (((cfg2.win 0).blk t).view.emb y) = (V c main_v65 : S50000x256.Idx → EReal) z
  refine congrArg _ ?_
  funext a
  apply Fin.ext
  match a with
  | ⟨0, _⟩ => show win2_0.index t (0 : Fin 2) * 2000 + 1 * (y 0).val = (z 0).val; rw [e0, h0]; omega
  | ⟨1, _⟩ => show win2_0.index t (1 : Fin 2) * 256 + 1 * (y 1).val = (z 1).val; rw [e1, h1]; omega

/-- Input window 1's block at point `t` is rows `t·2000 …` of its array. -/
theorem rows2_1 (c : Dev nD) (t : Fin cfg2.N) (y : S2000x256.Idx) (z : S50000x256.Idx)
    (h0 : (z 0).val = t.val * 2000 + (y 0).val) (h1 : (z 1).val = (y 1).val) :
    (iblk2 V c 1 t : FVec Ideal S2000x256 .f32) y = (V c main_v78 : S50000x256.Idx → EReal) z := by
  have e0 : win2_1.index t (0 : Fin 2) = t.val := by have := idx2 t; simp only [this]
  have e1 : win2_1.index t (1 : Fin 2) = 0 := by have := idx2 t; simp only [this]
  unfold iblk2
  rw [View.read_apply]
  show (V c main_v78 : S50000x256.Idx → EReal) (((cfg2.win 1).blk t).view.emb y) = (V c main_v78 : S50000x256.Idx → EReal) z
  refine congrArg _ ?_
  funext a
  apply Fin.ext
  match a with
  | ⟨0, _⟩ => show win2_1.index t (0 : Fin 2) * 2000 + 1 * (y 0).val = (z 0).val; rw [e0, h0]; omega
  | ⟨1, _⟩ => show win2_1.index t (1 : Fin 2) * 256 + 1 * (y 1).val = (z 1).val; rw [e1, h1]; omega

/-- Input window 2 is one block, the whole weight matrix, at every point. -/
theorem whole2_2 (c : Dev nD) (t : Fin cfg2.N) :
    (iblk2 V c 2 t : FVec Ideal S256x256 .f32) = (V c main_v80 : S256x256.Idx → EReal) := by
  have e0 : win2_2.index t (0 : Fin 2) = 0 := by have := idx2 t; simp only [this]
  have e1 : win2_2.index t (1 : Fin 2) = 0 := by have := idx2 t; simp only [this]
  funext y
  unfold iblk2
  rw [View.read_apply]
  show (V c main_v80 : S256x256.Idx → EReal) (((cfg2.win 2).blk t).view.emb y) = (V c main_v80 : S256x256.Idx → EReal) y
  refine congrArg _ ?_
  funext a
  apply Fin.ext
  match a with
  | ⟨0, _⟩ => show win2_2.index t (0 : Fin 2) * 256 + 1 * (y 0).val = (y 0).val; rw [e0]; omega
  | ⟨1, _⟩ => show win2_2.index t (1 : Fin 2) * 256 + 1 * (y 1).val = (y 1).val; rw [e1]; omega

/-- Input window 3 is one block, the whole weight matrix, at every point. -/
theorem whole2_3 (c : Dev nD) (t : Fin cfg2.N) :
    (iblk2 V c 3 t : FVec Ideal S256x256 .f32) = (V c main_v82 : S256x256.Idx → EReal) := by
  have e0 : win2_3.index t (0 : Fin 2) = 0 := by have := idx2 t; simp only [this]
  have e1 : win2_3.index t (1 : Fin 2) = 0 := by have := idx2 t; simp only [this]
  funext y
  unfold iblk2
  rw [View.read_apply]
  show (V c main_v82 : S256x256.Idx → EReal) (((cfg2.win 3).blk t).view.emb y) = (V c main_v82 : S256x256.Idx → EReal) y
  refine congrArg _ ?_
  funext a
  apply Fin.ext
  match a with
  | ⟨0, _⟩ => show win2_3.index t (0 : Fin 2) * 256 + 1 * (y 0).val = (y 0).val; rw [e0]; omega
  | ⟨1, _⟩ => show win2_3.index t (1 : Fin 2) * 256 + 1 * (y 1).val = (y 1).val; rw [e1]; omega

/-- Input window 4 is one block, the whole bias vector, at every point. -/
theorem whole2_4 (c : Dev nD) (t : Fin cfg2.N) :
    (iblk2 V c 4 t : FVec Ideal S256 .f32) = (V c main_arg7 : S256.Idx → EReal) := by
  have e0 : win2_4.index t (0 : Fin 1) = 0 := by have := idx2 t; simp only [this]
  funext y
  unfold iblk2
  rw [View.read_apply]
  show (V c main_arg7 : S256.Idx → EReal) (((cfg2.win 4).blk t).view.emb y) = (V c main_arg7 : S256.Idx → EReal) y
  refine congrArg _ ?_
  funext a
  apply Fin.ext
  match a with
  | ⟨0, _⟩ => show win2_4.index t (0 : Fin 1) * 256 + 1 * (y 0).val = (y 0).val; rw [e0]; omega

/-- WHAT POINT `t` WRITES BACK is block `t` of the layer function of the arrays as the region finds them. -/
theorem flushed2 (c : Dev nD) (t : Fin cfg2.N) :
    (dat2 V c).flushed 5 t = ((cfg2.win 5).blk t).view.read (Elt Ideal)
      (Cheb.last256 (V c main_v65) (V c main_v78) (V c main_v80) (V c main_v82) (V c main_arg7)) := by
  have e0 : win2_5.index t (0 : Fin 2) = t.val := by have := idx2 t; simp only [this]
  have e1 : win2_5.index t (1 : Fin 2) = 0 := by have := idx2 t; simp only [this]
  show (cfg2.win 5).cut (grid2.coords t) ((dat2 V c).after 5 t) = _
  rw [after2_5]
  unfold out2_5
  rw [View.canon_unit_zero hz2]
  simp only [View.ld_unit_zero (S := S2000x256) hz2, View.ld_unit_zero (S := S256x256) hz2, View.ld_unit_zero (S := S256) hz1]
  funext j
  rw [View.read_apply]
  refine Body.point2 (iblk2 V c 0 t) (iblk2 V c 1 t) (iblk2 V c 2 t) (iblk2 V c 3 t) (iblk2 V c 4 t)
    (V c main_v65) (V c main_v78) (V c main_v80) (V c main_v82) (V c main_arg7) t.val j (((cfg2.win 5).blk t).view.emb j) ?_ ?_
    (fun y z h0 h1 => rows2_0 V c t y z h0 h1) (fun y z h0 h1 => rows2_1 V c t y z h0 h1)
    (whole2_2 V c t) (whole2_3 V c t) (whole2_4 V c t)
  · show win2_5.index t (0 : Fin 2) * 2000 + 1 * (j 0).val = t.val * 2000 + (j 0).val; rw [e0]; omega
  · show win2_5.index t (1 : Fin 2) * 256 + 1 * (j 1).val = (j 1).val; rw [e1]; omega

/-- An index of the output array is in point `t`'s block iff each coordinate is in the block's range on its axis. -/
theorem mem_blk2 (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v83).slice (win2_5.rect t)).set ↔ _
  rw [View.set_slice_whole, Rect.mem_set_unit]
  exact Iff.rfl

/-- THE ARRAY after the region: the 25 blocks of 2000 rows tile its 50000 rows (row `r` is in block `r / 2000`), so it
    ends holding the layer function of the region's entry arrays. -/
theorem final2 (c : Dev nD) : (dat2 V c).arrAt 5 cfg2.N
    = Cheb.last256 (V c main_v65) (V c main_v78) (V c main_v80) (V c main_v82) (V c main_arg7) :=
  (dat2 V c).arrAt_eq_of_cover 5 _ (fun t _ => flushed2 V c t) fun i => by
    have hN : cfg2.N = 25 := N_2
    have hi0 : ((i 0 : Fin _) : Nat) < 50000 := (i 0).isLt
    have hi1 : ((i 1 : Fin _) : Nat) < 256 := (i 1).isLt
    obtain ⟨t, ht⟩ : ∃ t : Fin cfg2.N, t.val = (i 0).val / 2000 := ⟨⟨(i 0).val / 2000, by rw [hN]; omega⟩, rfl⟩
    have e0 : win2_5.index t (0 : Fin 2) = t.val := by have := idx2 t; simp only [this]
    have e1 : win2_5.index t (1 : Fin 2) = 0 := by have := idx2 t; simp only [this]
    refine ⟨t, flush2_5 t, ?_⟩
    rw [mem_blk2]
    intro a
    match a with
    | ⟨0, _⟩ => show win2_5.index t (0 : Fin 2) * 2000 ≤ (i 0).val ∧ (i 0).val < win2_5.index t (0 : Fin 2) * 2000 + 2000; rw [e0, ht]; omega
    | ⟨1, _⟩ => show win2_5.index t (1 : Fin 2) * 256 ≤ (i 1).val ∧ (i 1).val < win2_5.index t (1 : Fin 2) * 256 + 256; rw [e1]; omega

end Cert.KernelIdeal.Blocks

end
-- ==== Proof.Fold0.lean ====
/-
  The first pallas_call. It is entered with the node features and the first layer's bias as launched, the propagated
  features and the two weight matrices as the host operations before it computed them from the launch contents; so
  the array it writes ends holding the first layer of the launch contents.
-/
import proofs.«177321_j51573967290506_1_alg».proof.Proof.FoldBase
import proofs.«177321_j51573967290506_1_alg».proof.Proof.Regions

set_option maxRecDepth 65536

noncomputable section

namespace Cert.KernelIdeal.Fold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
theorem E0_a0 (c : Dev nD) : W3 m ρ c (Proc.devRef .tc main_arg0) = a0 m c := by
  show StableHlo.after hostOps0_2 (StableHlo.after hostOps0_1 (StableHlo.after hostOps0 (W0 m ρ c))) (Proc.devRef .tc main_arg0) = _
  after_results_simp
  try rfl
set_option maxHeartbeats 4000000 in
theorem E0_a3 (c : Dev nD) : W3 m ρ c (Proc.devRef .tc main_arg3) = a3 m c := by
  show StableHlo.after hostOps0_2 (StableHlo.after hostOps0_1 (StableHlo.after hostOps0 (W0 m ρ c))) (Proc.devRef .tc main_arg3) = _
  after_results_simp
  try rfl
set_option maxHeartbeats 8000000 in
theorem E0_v42 (c : Dev nD) : W3 m ρ c (Proc.devRef .tc main_v42) = Glue.prop48 (a1 m c) (a0 m c) := by
  show StableHlo.after hostOps0_2 (StableHlo.after hostOps0_1 (StableHlo.after hostOps0 (W0 m ρ c))) (Proc.devRef .tc main_v42) = _
  after_results_simp
  simp only [toBuf_call0_v0, ofBuf_call0_v0, toBuf_call0_v1, ofBuf_call0_v1, ofBuf_cst_3, ofBuf_v9, ofBuf_v12, toBuf_v13]
  try rfl
set_option maxHeartbeats 4000000 in
theorem E0_v44 (c : Dev nD) : W3 m ρ c (Proc.devRef .tc main_v44) = Glue.lo48 (a2 m c) := by
  show StableHlo.after hostOps0_2 (StableHlo.after hostOps0_1 (StableHlo.after hostOps0 (W0 m ρ c))) (Proc.devRef .tc main_v44) = _
  after_results_simp
  try rfl
set_option maxHeartbeats 4000000 in
theorem E0_v46 (c : Dev nD) : W3 m ρ c (Proc.devRef .tc main_v46) = Glue.hi48 (a2 m c) := by
  show StableHlo.after hostOps0_2 (StableHlo.after hostOps0_1 (StableHlo.after hostOps0 (W0 m ρ c))) (Proc.devRef .tc main_v46) = _
  after_results_simp
  try rfl

/-- After the first call its output array holds the first layer of the launch contents. -/
theorem out0 (c : Dev nD) : W4 m ρ c (Proc.devRef .tc main_v47) = L1 m c := by
  refine (W4_arr m ρ c 5).trans ((Blocks.final0 (V3 m ρ) c).trans ?_)
  show Cheb.hidden48 (W3 m ρ c (Proc.devRef .tc main_arg0)) (W3 m ρ c (Proc.devRef .tc main_v42)) (W3 m ρ c (Proc.devRef .tc main_v44))
    (W3 m ρ c (Proc.devRef .tc main_v46)) (W3 m ρ c (Proc.devRef .tc main_arg3)) = _
  rw [E0_a0, E0_v42, E0_v44, E0_v46, E0_a3]
  rfl

end Cert.KernelIdeal.Fold

end
-- ==== Proof.FoldKeep.lean ====
/-
  The buffers that outlive the pallas_calls untouched: the two ends of each edge, the edge weight, and the arguments of
  the later layers. They are computed (or launched) before the first call; no call stages them and no later host
  operation writes them, so at every later boundary of the fold they still hold the same function of the launch
  contents.
-/
import proofs.«177321_j51573967290506_1_alg».proof.Proof.FoldBase

set_option maxRecDepth 65536

noncomputable section

namespace Cert.KernelIdeal.Fold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
theorem K3_v1 (c : Dev nD) : W3 m ρ c (Proc.devRef .tc main_v1) = Glue.src (a1 m c) := by
  show StableHlo.after hostOps0_2 (StableHlo.after hostOps0_1 (StableHlo.after hostOps0 (W0 m ρ c))) (Proc.devRef .tc main_v1) = _
  after_results_simp
  try rfl
theorem K4_v1 (c : Dev nD) : W4 m ρ c (Proc.devRef .tc main_v1) = Glue.src (a1 m c) :=
  (W4_of_ne m ρ c main_v1 (by decide)).trans (K3_v1 m ρ c)
set_option maxHeartbeats 4000000 in
theorem K5_v1 (c : Dev nD) : W5 m ρ c (Proc.devRef .tc main_v1) = Glue.src (a1 m c) := by
  show StableHlo.after hostOps1 (W4 m ρ c) (Proc.devRef .tc main_v1) = _
  after_results_simp
  exact K4_v1 m ρ c

set_option maxHeartbeats 4000000 in
theorem K3_v3 (c : Dev nD) : W3 m ρ c (Proc.devRef .tc main_v3) = Glue.dst (a1 m c) := by
  show StableHlo.after hostOps0_2 (StableHlo.after hostOps0_1 (StableHlo.after hostOps0 (W0 m ρ c))) (Proc.devRef .tc main_v3) = _
  after_results_simp
  try rfl
theorem K4_v3 (c : Dev nD) : W4 m ρ c (Proc.devRef .tc main_v3) = Glue.dst (a1 m c) :=
  (W4_of_ne m ρ c main_v3 (by decide)).trans (K3_v3 m ρ c)
set_option maxHeartbeats 4000000 in
theorem K5_v3 (c : Dev nD) : W5 m ρ c (Proc.devRef .tc main_v3) = Glue.dst (a1 m c) := by
  show StableHlo.after hostOps1 (W4 m ρ c) (Proc.devRef .tc main_v3) = _
  after_results_simp
  exact K4_v3 m ρ c

set_option maxHeartbeats 4000000 in
theorem K3_v29 (c : Dev nD) : W3 m ρ c (Proc.devRef .tc main_v29) = Glue.weight (a1 m c) := by
  show StableHlo.after hostOps0_2 (StableHlo.after hostOps0_1 (StableHlo.after hostOps0 (W0 m ρ c))) (Proc.devRef .tc main_v29) = _
  after_results_simp
  simp only [toBuf_call0_v0, ofBuf_call0_v0, toBuf_call0_v1, ofBuf_call0_v1, ofBuf_cst_3, ofBuf_v9, ofBuf_v12, toBuf_v13]
  try rfl
theorem K4_v29 (c : Dev nD) : W4 m ρ c (Proc.devRef .tc main_v29) = Glue.weight (a1 m c) :=
  (W4_of_ne m ρ c main_v29 (by decide)).trans (K3_v29 m ρ c)
set_option maxHeartbeats 4000000 in
theorem K5_v29 (c : Dev nD) : W5 m ρ c (Proc.devRef .tc main_v29) = Glue.weight (a1 m c) := by
  show StableHlo.after hostOps1 (W4 m ρ c) (Proc.devRef .tc main_v29) = _
  after_results_simp
  exact K4_v29 m ρ c

set_option maxHeartbeats 4000000 in
theorem K3_a4 (c : Dev nD) : W3 m ρ c (Proc.devRef .tc main_arg4) = a4 m c := by
  show StableHlo.after hostOps0_2 (StableHlo.after hostOps0_1 (StableHlo.after hostOps0 (W0 m ρ c))) (Proc.devRef .tc main_arg4) = _
  after_results_simp
  try rfl
theorem K4_a4 (c : Dev nD) : W4 m ρ c (Proc.devRef .tc main_arg4) = a4 m c :=
  (W4_of_ne m ρ c main_arg4 (by decide)).trans (K3_a4 m ρ c)
set_option maxHeartbeats 4000000 in
theorem K5_a4 (c : Dev nD) : W5 m ρ c (Proc.devRef .tc main_arg4) = a4 m c := by
  show StableHlo.after hostOps1 (W4 m ρ c) (Proc.devRef .tc main_arg4) = _
  after_results_simp
  exact K4_a4 m ρ c

set_option maxHeartbeats 4000000 in
theorem K3_a5 (c : Dev nD) : W3 m ρ c (Proc.devRef .tc main_arg5) = a5 m c := by
  show StableHlo.after hostOps0_2 (StableHlo.after hostOps0_1 (StableHlo.after hostOps0 (W0 m ρ c))) (Proc.devRef .tc main_arg5) = _
  after_results_simp
  try rfl
theorem K4_a5 (c : Dev nD) : W4 m ρ c (Proc.devRef .tc main_arg5) = a5 m c :=
  (W4_of_ne m ρ c main_arg5 (by decide)).trans (K3_a5 m ρ c)
set_option maxHeartbeats 4000000 in
theorem K5_a5 (c : Dev nD) : W5 m ρ c (Proc.devRef .tc main_arg5) = a5 m c := by
  show StableHlo.after hostOps1 (W4 m ρ c) (Proc.devRef .tc main_arg5) = _
  after_results_simp
  exact K4_a5 m ρ c

set_option maxHeartbeats 4000000 in
theorem K3_a6 (c : Dev nD) : W3 m ρ c (Proc.devRef .tc main_arg6) = a6 m c := by
  show StableHlo.after hostOps0_2 (StableHlo.after hostOps0_1 (StableHlo.after hostOps0 (W0 m ρ c))) (Proc.devRef .tc main_arg6) = _
  after_results_simp
  try rfl
theorem K4_a6 (c : Dev nD) : W4 m ρ c (Proc.devRef .tc main_arg6) = a6 m c :=
  (W4_of_ne m ρ c main_arg6 (by decide)).trans (K3_a6 m ρ c)
set_option maxHeartbeats 4000000 in
theorem K5_a6 (c : Dev nD) : W5 m ρ c (Proc.devRef .tc main_arg6) = a6 m c := by
  show StableHlo.after hostOps1 (W4 m ρ c) (Proc.devRef .tc main_arg6) = _
  after_results_simp
  exact K4_a6 m ρ c

set_option maxHeartbeats 4000000 in
theorem K3_a7 (c : Dev nD) : W3 m ρ c (Proc.devRef .tc main_arg7) = a7 m c := by
  show StableHlo.after hostOps0_2 (StableHlo.after hostOps0_1 (StableHlo.after hostOps0 (W0 m ρ c))) (Proc.devRef .tc main_arg7) = _
  after_results_simp
  try rfl
theorem K4_a7 (c : Dev nD) : W4 m ρ c (Proc.devRef .tc main_arg7) = a7 m c :=
  (W4_of_ne m ρ c main_arg7 (by decide)).trans (K3_a7 m ρ c)
set_option maxHeartbeats 4000000 in
theorem K5_a7 (c : Dev nD) : W5 m ρ c (Proc.devRef .tc main_arg7) = a7 m c := by
  show StableHlo.after hostOps1 (W4 m ρ c) (Proc.devRef .tc main_arg7) = _
  after_results_simp
  exact K4_a7 m ρ c

theorem K6_v1 (c : Dev nD) : W6 m ρ c (Proc.devRef .tc main_v1) = Glue.src (a1 m c) :=
  (W6_of_ne m ρ c main_v1 (by decide)).trans (K5_v1 m ρ c)

theorem K6_v3 (c : Dev nD) : W6 m ρ c (Proc.devRef .tc main_v3) = Glue.dst (a1 m c) :=
  (W6_of_ne m ρ c main_v3 (by decide)).trans (K5_v3 m ρ c)

theorem K6_v29 (c : Dev nD) : W6 m ρ c (Proc.devRef .tc main_v29) = Glue.weight (a1 m c) :=
  (W6_of_ne m ρ c main_v29 (by decide)).trans (K5_v29 m ρ c)

theorem K6_a6 (c : Dev nD) : W6 m ρ c (Proc.devRef .tc main_arg6) = a6 m c :=
  (W6_of_ne m ρ c main_arg6 (by decide)).trans (K5_a6 m ρ c)

theorem K6_a7 (c : Dev nD) : W6 m ρ c (Proc.devRef .tc main_arg7) = a7 m c :=
  (W6_of_ne m ρ c main_arg7 (by decide)).trans (K5_a7 m ρ c)

set_option maxHeartbeats 4000000 in
theorem K7_a7 (c : Dev nD) : W7 m ρ c (Proc.devRef .tc main_arg7) = a7 m c := by
  show StableHlo.after hostOps2 (W6 m ρ c) (Proc.devRef .tc main_arg7) = _
  after_results_simp
  exact K6_a7 m ρ c

end Cert.KernelIdeal.Fold

end
-- ==== Proof.Fold1.lean ====
/-
  The second pallas_call. Between the first call and it the host propagates the first layer's result along the edges
  (with the edge weights computed before the first call) and slices the second layer's weights; the call is entered
  with those and leaves the second layer of the launch contents.
-/
import proofs.«177321_j51573967290506_1_alg».proof.Proof.Fold0
import proofs.«177321_j51573967290506_1_alg».proof.Proof.FoldKeep

set_option maxRecDepth 65536

noncomputable section

namespace Cert.KernelIdeal.Fold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
theorem E1_in (c : Dev nD) : W5 m ρ c (Proc.devRef .tc main_v47) = L1 m c := by
  show StableHlo.after hostOps1 (W4 m ρ c) (Proc.devRef .tc main_v47) = _
  after_results_simp
  exact out0 m ρ c
set_option maxHeartbeats 8000000 in
theorem E1_tx (c : Dev nD) : W5 m ρ c (Proc.devRef .tc main_v60) = Glue.prop256 (a1 m c) (L1 m c) := by
  show StableHlo.after hostOps1 (W4 m ρ c) (Proc.devRef .tc main_v60) = _
  after_results_simp
  rw [out0 m ρ c, K4_v29 m ρ c, K4_v1 m ρ c, K4_v3 m ρ c]
  try rfl
set_option maxHeartbeats 4000000 in
theorem E1_lo (c : Dev nD) : W5 m ρ c (Proc.devRef .tc main_v62) = Glue.lo256 (a4 m c) := by
  show StableHlo.after hostOps1 (W4 m ρ c) (Proc.devRef .tc main_v62) = _
  after_results_simp
  rw [K4_a4 m ρ c]
  try rfl
set_option maxHeartbeats 4000000 in
theorem E1_hi (c : Dev nD) : W5 m ρ c (Proc.devRef .tc main_v64) = Glue.hi256 (a4 m c) := by
  show StableHlo.after hostOps1 (W4 m ρ c) (Proc.devRef .tc main_v64) = _
  after_results_simp
  rw [K4_a4 m ρ c]
  try rfl

/-- After this call its output array holds layer 2 of the launch contents. -/
theorem out1 (c : Dev nD) : W6 m ρ c (Proc.devRef .tc main_v65) = L2 m c := by
  refine (W6_arr m ρ c 5).trans ((Blocks.final1 (V5 m ρ) c).trans ?_)
  show Cheb.hidden256 (W5 m ρ c (Proc.devRef .tc main_v47)) (W5 m ρ c (Proc.devRef .tc main_v60)) (W5 m ρ c (Proc.devRef .tc main_v62))
    (W5 m ρ c (Proc.devRef .tc main_v64)) (W5 m ρ c (Proc.devRef .tc main_arg5)) = _
  rw [E1_in, E1_tx, E1_lo, E1_hi, K5_a5]
  rfl

end Cert.KernelIdeal.Fold

end
-- ==== Proof.Fold2.lean ====
/-
  The third pallas_call, the same way: entered with the second layer's result, its propagation along the edges and the
  third layer's weights and bias, it leaves the third layer of the launch contents in the result array — the value of
  the whole program.
-/
import proofs.«177321_j51573967290506_1_alg».proof.Proof.Fold1

set_option maxRecDepth 65536

noncomputable section

namespace Cert.KernelIdeal.Fold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
theorem E2_in (c : Dev nD) : W7 m ρ c (Proc.devRef .tc main_v65) = L2 m c := by
  show StableHlo.after hostOps2 (W6 m ρ c) (Proc.devRef .tc main_v65) = _
  after_results_simp
  exact out1 m ρ c
set_option maxHeartbeats 8000000 in
theorem E2_tx (c : Dev nD) : W7 m ρ c (Proc.devRef .tc main_v78) = Glue.prop256 (a1 m c) (L2 m c) := by
  show StableHlo.after hostOps2 (W6 m ρ c) (Proc.devRef .tc main_v78) = _
  after_results_simp
  rw [out1 m ρ c, K6_v29 m ρ c, K6_v1 m ρ c, K6_v3 m ρ c]
  try rfl
set_option maxHeartbeats 4000000 in
theorem E2_lo (c : Dev nD) : W7 m ρ c (Proc.devRef .tc main_v80) = Glue.lo256 (a6 m c) := by
  show StableHlo.after hostOps2 (W6 m ρ c) (Proc.devRef .tc main_v80) = _
  after_results_simp
  rw [K6_a6 m ρ c]
  try rfl
set_option maxHeartbeats 4000000 in
theorem E2_hi (c : Dev nD) : W7 m ρ c (Proc.devRef .tc main_v82) = Glue.hi256 (a6 m c) := by
  show StableHlo.after hostOps2 (W6 m ρ c) (Proc.devRef .tc main_v82) = _
  after_results_simp
  rw [K6_a6 m ρ c]
  try rfl

/-- After this call its output array holds layer 3 of the launch contents. -/
theorem out2 (c : Dev nD) : W8 m ρ c (Proc.devRef .tc main_v83) = L3 m c := by
  refine (W8_arr m ρ c 5).trans ((Blocks.final2 (V7 m ρ) c).trans ?_)
  show Cheb.last256 (W7 m ρ c (Proc.devRef .tc main_v65)) (W7 m ρ c (Proc.devRef .tc main_v78)) (W7 m ρ c (Proc.devRef .tc main_v80))
    (W7 m ρ c (Proc.devRef .tc main_v82)) (W7 m ρ c (Proc.devRef .tc main_arg7)) = _
  rw [E2_in, E2_tx, E2_lo, E2_hi, K7_a7]
  rfl

end Cert.KernelIdeal.Fold

end
-- ==== Proof.ReferenceLayer.lean ====
/-
  The reference's dense layer, read at an entry, at the ideal instance.

  The reference computes a layer on all 50000 rows at once: two host matrix products, added; the bias, laid out as one
  row and repeated over the rows, added; and in the hidden layers the maximum with an array of zeros. On the extended
  reals a host matrix product's entry (p, q) is the plain sum over the contracted axis, so each of the three layers is
  the layer function of Spec, entry by entry.
-/
import proofs.«177321_j51573967290506_1_alg».proof.ReferenceIdeal
import proofs.«177321_j51573967290506_1_alg».proof.Proof.Gen.ReferenceIdeal
import proofs.«177321_j51573967290506_1_alg».proof.Proof.Spec
import Idealize.ShloMosaic.PureOps.Ideal.Laws
import Idealize.ShloMosaic.Lib.ValueIdx
import Idealize.ShloMosaic.Lib.Pipeline.Value

noncomputable section

open scoped BigOperators

namespace Cert.ReferenceIdeal.Layer

open Cert.ReferenceIdeal Cert.ReferenceIdeal.Gen Idealize.ShloMosaic Idealize.ShloMosaic.ValueIdx

theorem lhs48_0 (i : S50000x256.Idx) (q : dot_S50000x48_S48x256_S50000x256_1_0_0_1_n_n.contr.Idx) :
    (dot_S50000x48_S48x256_S50000x256_1_0_0_1_n_n.lhsIdx i q 0).val = (i 0).val := by
  unfold DotDims.lhsIdx
  rw [dif_neg (show ¬(0 : Fin S50000x48.rank) ∈ dot_S50000x48_S48x256_S50000x256_1_0_0_1_n_n.lhsBatch by decide), dif_pos (show (0 : Fin S50000x48.rank) ∈ dot_S50000x48_S48x256_S50000x256_1_0_0_1_n_n.lhsNonContracting by decide)]
  rfl
theorem lhs48_1 (i : S50000x256.Idx) (q : dot_S50000x48_S48x256_S50000x256_1_0_0_1_n_n.contr.Idx) :
    (dot_S50000x48_S48x256_S50000x256_1_0_0_1_n_n.lhsIdx i q 1).val = (q ⟨0, by decide⟩).val :=
  dot_S50000x48_S48x256_S50000x256_1_0_0_1_n_n.lhsIdx_val_of_single rfl i q
theorem rhs48_0 (i : S50000x256.Idx) (q : dot_S50000x48_S48x256_S50000x256_1_0_0_1_n_n.contr.Idx) :
    (dot_S50000x48_S48x256_S50000x256_1_0_0_1_n_n.rhsIdx i q 0).val = (q ⟨0, by decide⟩).val :=
  dot_S50000x48_S48x256_S50000x256_1_0_0_1_n_n.rhsIdx_val_of_single rfl i q
theorem rhs48_1 (i : S50000x256.Idx) (q : dot_S50000x48_S48x256_S50000x256_1_0_0_1_n_n.contr.Idx) :
    (dot_S50000x48_S48x256_S50000x256_1_0_0_1_n_n.rhsIdx i q 1).val = (i 1).val := by
  unfold DotDims.rhsIdx
  rw [dif_neg (show ¬(1 : Fin S48x256.rank) ∈ dot_S50000x48_S48x256_S50000x256_1_0_0_1_n_n.rhsBatch by decide), dif_pos (show (1 : Fin S48x256.rank) ∈ dot_S50000x48_S48x256_S50000x256_1_0_0_1_n_n.rhsNonContracting by decide)]
  rfl

/-- Entry (p, q) of the host's matrix product: the sum over the 48 contracted columns. -/
theorem dot48_at {φ₁ φ₂ : FTy} (l : FVec Ideal S50000x48 φ₁) (r : FVec Ideal S48x256 φ₂) (p : Fin 50000) (q : Fin 256) :
    Host.dotGeneral (F := Ideal) dot_S50000x48_S48x256_S50000x256_1_0_0_1_n_n none l r (ix2 p q) = ∑ k : Fin 48, l (ix2 p k) * r (ix2 k q) := by
  simp only [Host.dotGeneral]
  rw [Ideal.dotGeneral_apply, ← Equiv.sum_comp (ValueIdx.contrEquiv1 dot_S50000x48_S48x256_S50000x256_1_0_0_1_n_n 48 rfl rfl).symm]
  refine Finset.sum_congr rfl fun k _ => ?_
  have hk := ValueIdx.contrEquiv1_symm_val dot_S50000x48_S48x256_S50000x256_1_0_0_1_n_n 48 rfl rfl k
  have el : dot_S50000x48_S48x256_S50000x256_1_0_0_1_n_n.lhsIdx (ix2 p q) ((ValueIdx.contrEquiv1 dot_S50000x48_S48x256_S50000x256_1_0_0_1_n_n 48 rfl rfl).symm k) = ix2 p k := funext fun a => Fin.ext (by
    match a with
    | ⟨0, _⟩ => exact lhs48_0 _ _
    | ⟨1, _⟩ => exact (lhs48_1 _ _).trans hk)
  have er : dot_S50000x48_S48x256_S50000x256_1_0_0_1_n_n.rhsIdx (ix2 p q) ((ValueIdx.contrEquiv1 dot_S50000x48_S48x256_S50000x256_1_0_0_1_n_n 48 rfl rfl).symm k) = ix2 k q := funext fun a => Fin.ext (by
    match a with
    | ⟨0, _⟩ => exact (rhs48_0 _ _).trans hk
    | ⟨1, _⟩ => exact rhs48_1 _ _)
  rw [el, er]

theorem lhs256_0 (i : S50000x256.Idx) (q : dot_S50000x256_S256x256_S50000x256_1_0_0_1_n_n.contr.Idx) :
    (dot_S50000x256_S256x256_S50000x256_1_0_0_1_n_n.lhsIdx i q 0).val = (i 0).val := by
  unfold DotDims.lhsIdx
  rw [dif_neg (show ¬(0 : Fin S50000x256.rank) ∈ dot_S50000x256_S256x256_S50000x256_1_0_0_1_n_n.lhsBatch by decide), dif_pos (show (0 : Fin S50000x256.rank) ∈ dot_S50000x256_S256x256_S50000x256_1_0_0_1_n_n.lhsNonContracting by decide)]
  rfl
theorem lhs256_1 (i : S50000x256.Idx) (q : dot_S50000x256_S256x256_S50000x256_1_0_0_1_n_n.contr.Idx) :
    (dot_S50000x256_S256x256_S50000x256_1_0_0_1_n_n.lhsIdx i q 1).val = (q ⟨0, by decide⟩).val :=
  dot_S50000x256_S256x256_S50000x256_1_0_0_1_n_n.lhsIdx_val_of_single rfl i q
theorem rhs256_0 (i : S50000x256.Idx) (q : dot_S50000x256_S256x256_S50000x256_1_0_0_1_n_n.contr.Idx) :
    (dot_S50000x256_S256x256_S50000x256_1_0_0_1_n_n.rhsIdx i q 0).val = (q ⟨0, by decide⟩).val :=
  dot_S50000x256_S256x256_S50000x256_1_0_0_1_n_n.rhsIdx_val_of_single rfl i q
theorem rhs256_1 (i : S50000x256.Idx) (q : dot_S50000x256_S256x256_S50000x256_1_0_0_1_n_n.contr.Idx) :
    (dot_S50000x256_S256x256_S50000x256_1_0_0_1_n_n.rhsIdx i q 1).val = (i 1).val := by
  unfold DotDims.rhsIdx
  rw [dif_neg (show ¬(1 : Fin S256x256.rank) ∈ dot_S50000x256_S256x256_S50000x256_1_0_0_1_n_n.rhsBatch by decide), dif_pos (show (1 : Fin S256x256.rank) ∈ dot_S50000x256_S256x256_S50000x256_1_0_0_1_n_n.rhsNonContracting by decide)]
  rfl

/-- Entry (p, q) of the host's matrix product: the sum over the 256 contracted columns. -/
theorem dot256_at {φ₁ φ₂ : FTy} (l : FVec Ideal S50000x256 φ₁) (r : FVec Ideal S256x256 φ₂) (p : Fin 50000) (q : Fin 256) :
    Host.dotGeneral (F := Ideal) dot_S50000x256_S256x256_S50000x256_1_0_0_1_n_n none l r (ix2 p q) = ∑ k : Fin 256, l (ix2 p k) * r (ix2 k q) := by
  simp only [Host.dotGeneral]
  rw [Ideal.dotGeneral_apply, ← Equiv.sum_comp (ValueIdx.contrEquiv1 dot_S50000x256_S256x256_S50000x256_1_0_0_1_n_n 256 rfl rfl).symm]
  refine Finset.sum_congr rfl fun k _ => ?_
  have hk := ValueIdx.contrEquiv1_symm_val dot_S50000x256_S256x256_S50000x256_1_0_0_1_n_n 256 rfl rfl k
  have el : dot_S50000x256_S256x256_S50000x256_1_0_0_1_n_n.lhsIdx (ix2 p q) ((ValueIdx.contrEquiv1 dot_S50000x256_S256x256_S50000x256_1_0_0_1_n_n 256 rfl rfl).symm k) = ix2 p k := funext fun a => Fin.ext (by
    match a with
    | ⟨0, _⟩ => exact lhs256_0 _ _
    | ⟨1, _⟩ => exact (lhs256_1 _ _).trans hk)
  have er : dot_S50000x256_S256x256_S50000x256_1_0_0_1_n_n.rhsIdx (ix2 p q) ((ValueIdx.contrEquiv1 dot_S50000x256_S256x256_S50000x256_1_0_0_1_n_n 256 rfl rfl).symm k) = ix2 k q := funext fun a => Fin.ext (by
    match a with
    | ⟨0, _⟩ => exact (rhs256_0 _ _).trans hk
    | ⟨1, _⟩ => exact rhs256_1 _ _)
  rw [el, er]

/-- The bias, a vector of 256, laid out as one row and repeated over the 50000 rows, read at (p, q). -/
theorem bias_at (b : FVec Ideal S256 .f32) (p : Fin 50000) (q : Fin 256) :
    broadcastInDim S50000x256 ![0, 1] bcast_S1x256_S50000x256_0_1 (broadcastInDim S1x256 ![1] bcast_S256_S1x256_1 b) (ix2 p q) = b (ix1 q) :=
  (broadcastInDim_apply _ bcast_S1x256_S50000x256_0_1 (broadcastInDim S1x256 ![1] bcast_S256_S1x256_1 b) (ix2 p q) (ix2 (0 : Fin 1) q) (fun a => match a with
    | ⟨0, _⟩ => by show 0 = if (1 : Nat) = 1 then 0 else p.val; rw [if_pos rfl]
    | ⟨1, _⟩ => by show q.val = if (256 : Nat) = 1 then 0 else q.val; rw [if_neg (by decide)])).trans
  (broadcastInDim_apply _ bcast_S256_S1x256_1 b (ix2 (0 : Fin 1) q) (ix1 q) (fun a => match a with
    | ⟨0, _⟩ => by show q.val = if (256 : Nat) = 1 then 0 else q.val; rw [if_neg (by decide)]))

/-- The array of zeros read at any entry is the zero word's value. -/
theorem zero_at (i : S50000x256.Idx) :
    broadcastInDim S50000x256 ![] bcast_S_S50000x256 (constant (F := Ideal) S_ .f32 0x00000000#32) i = Ideal.ofBits .f32 0x00000000#32 :=
  (broadcastInDim_apply _ bcast_S_S50000x256 (constant (F := Ideal) S_ .f32 0x00000000#32) i ix0 (fun a => a.elim0)).trans rfl

/-- The reference's layer in operator form — two matrix products added, the bias row added, the maximum with a zero array —
    is the layer function, entry by entry. -/
theorem hidden48_eq (x tx : FVec Ideal S50000x48 .f32) (w0 w1 : FVec Ideal S48x256 .f32) (b : FVec Ideal S256 .f32) :
    maximumf (addf (addf (Host.dotGeneral (F := Ideal) dot_S50000x48_S48x256_S50000x256_1_0_0_1_n_n none x w0) (Host.dotGeneral (F := Ideal) dot_S50000x48_S48x256_S50000x256_1_0_0_1_n_n none tx w1))
        (broadcastInDim S50000x256 ![0, 1] bcast_S1x256_S50000x256_0_1 (broadcastInDim S1x256 ![1] bcast_S256_S1x256_1 b)))
      (broadcastInDim S50000x256 ![] bcast_S_S50000x256 (constant (F := Ideal) S_ .f32 0x00000000#32))
    = Cheb.hidden48 x tx w0 w1 b := by
  funext i
  obtain ⟨p, q, rfl⟩ : ∃ (p : Fin 50000) (q : Fin 256), i = ix2 p q := ⟨i 0, i 1, eq_ix2 i⟩
  show max (Host.dotGeneral (F := Ideal) dot_S50000x48_S48x256_S50000x256_1_0_0_1_n_n none x w0 (ix2 p q) + Host.dotGeneral (F := Ideal) dot_S50000x48_S48x256_S50000x256_1_0_0_1_n_n none tx w1 (ix2 p q)
      + broadcastInDim S50000x256 ![0, 1] bcast_S1x256_S50000x256_0_1 (broadcastInDim S1x256 ![1] bcast_S256_S1x256_1 b) (ix2 p q))
      (broadcastInDim S50000x256 ![] bcast_S_S50000x256 (constant (F := Ideal) S_ .f32 0x00000000#32) (ix2 p q)) = _
  rw [dot48_at, dot48_at, bias_at, zero_at]
  rfl

/-- The reference's layer in operator form — two matrix products added, the bias row added, the maximum with a zero array —
    is the layer function, entry by entry. -/
theorem hidden256_eq (x tx : FVec Ideal S50000x256 .f32) (w0 w1 : FVec Ideal S256x256 .f32) (b : FVec Ideal S256 .f32) :
    maximumf (addf (addf (Host.dotGeneral (F := Ideal) dot_S50000x256_S256x256_S50000x256_1_0_0_1_n_n none x w0) (Host.dotGeneral (F := Ideal) dot_S50000x256_S256x256_S50000x256_1_0_0_1_n_n none tx w1))
        (broadcastInDim S50000x256 ![0, 1] bcast_S1x256_S50000x256_0_1 (broadcastInDim S1x256 ![1] bcast_S256_S1x256_1 b)))
      (broadcastInDim S50000x256 ![] bcast_S_S50000x256 (constant (F := Ideal) S_ .f32 0x00000000#32))
    = Cheb.hidden256 x tx w0 w1 b := by
  funext i
  obtain ⟨p, q, rfl⟩ : ∃ (p : Fin 50000) (q : Fin 256), i = ix2 p q := ⟨i 0, i 1, eq_ix2 i⟩
  show max (Host.dotGeneral (F := Ideal) dot_S50000x256_S256x256_S50000x256_1_0_0_1_n_n none x w0 (ix2 p q) + Host.dotGeneral (F := Ideal) dot_S50000x256_S256x256_S50000x256_1_0_0_1_n_n none tx w1 (ix2 p q)
      + broadcastInDim S50000x256 ![0, 1] bcast_S1x256_S50000x256_0_1 (broadcastInDim S1x256 ![1] bcast_S256_S1x256_1 b) (ix2 p q))
      (broadcastInDim S50000x256 ![] bcast_S_S50000x256 (constant (F := Ideal) S_ .f32 0x00000000#32) (ix2 p q)) = _
  rw [dot256_at, dot256_at, bias_at, zero_at]
  rfl

/-- The reference's layer in operator form — two matrix products added, the bias row added —
    is the layer function, entry by entry. -/
theorem last256_eq (x tx : FVec Ideal S50000x256 .f32) (w0 w1 : FVec Ideal S256x256 .f32) (b : FVec Ideal S256 .f32) :
    (addf (addf (Host.dotGeneral (F := Ideal) dot_S50000x256_S256x256_S50000x256_1_0_0_1_n_n none x w0) (Host.dotGeneral (F := Ideal) dot_S50000x256_S256x256_S50000x256_1_0_0_1_n_n none tx w1))
        (broadcastInDim S50000x256 ![0, 1] bcast_S1x256_S50000x256_0_1 (broadcastInDim S1x256 ![1] bcast_S256_S1x256_1 b)))
    = Cheb.last256 x tx w0 w1 b := by
  funext i
  obtain ⟨p, q, rfl⟩ : ∃ (p : Fin 50000) (q : Fin 256), i = ix2 p q := ⟨i 0, i 1, eq_ix2 i⟩
  show (Host.dotGeneral (F := Ideal) dot_S50000x256_S256x256_S50000x256_1_0_0_1_n_n none x w0 (ix2 p q) + Host.dotGeneral (F := Ideal) dot_S50000x256_S256x256_S50000x256_1_0_0_1_n_n none tx w1 (ix2 p q)
      + broadcastInDim S50000x256 ![0, 1] bcast_S1x256_S50000x256_0_1 (broadcastInDim S1x256 ![1] bcast_S256_S1x256_1 b) (ix2 p q)) = _
  rw [dot256_at, dot256_at, bias_at]
  rfl

end Cert.ReferenceIdeal.Layer

end
-- ==== Proof.ReferenceValue.lean ====
/-
  The reference's result, as the three layers of its arguments.

  The reference's run ends with its result at one composed term of the launch contents: three times "propagate along the
  edges, two matrix products, add, add the bias", the first two followed by the maximum with zero. Each of these layers
  in operator form is the layer function (entry by entry, the host matrix product being the plain sum over the
  contracted axis), and the host operations around them — the edge ends, the degrees, the edge weights, the
  propagations, the weight slices — are the very operations named for the kernel, applied to the same operands. So the
  term is the third layer of the launch contents.
-/
import proofs.«177321_j51573967290506_1_alg».proof.Proof.ReferenceRun
import proofs.«177321_j51573967290506_1_alg».proof.Proof.ReferenceLayer
import proofs.«177321_j51573967290506_1_alg».proof.Proof.Glue

noncomputable section

namespace Cert.ReferenceIdeal.RefValue

open Cert.ReferenceIdeal Cert.ReferenceIdeal.Gen Idealize.ShloMosaic Idealize.ShloMosaic.TcCoe Idealize.SL.Sem

set_option maxRecDepth 65536 in
set_option maxHeartbeats 40000000 in
/-- The reference's composed term is the third layer of its arguments' launch contents. -/
theorem result_eq (m : (ℓ : Loc nD τ sig) → Buf (Elt Ideal) ℓ) (c : Dev nD) :
    Cert.ReferenceIdeal.ValueP.res_main_v100 (F := Ideal) m c
      = Cert.KernelIdeal.Glue.layer3 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v100 Cert.KernelIdeal.Glue.layer3 Cert.KernelIdeal.Glue.layer2 Cert.KernelIdeal.Glue.layer1
  rw [← Layer.last256_eq, ← Layer.hidden256_eq, ← Layer.hidden48_eq]
  rfl

end Cert.ReferenceIdeal.RefValue

end
-- ==== Proof.lean ====
/-
  The certificate of a three-layer Chebyshev graph convolution (order two) computed by three pallas_calls against its
  plain reference.

  Both programs compute, with the same host operations, everything that depends on the graph (edge ends, degrees, edge
  weights, the propagation of features along the edges), and per layer the dense part

      out[p, q] = Σₖ feat[p, k]·w₀[k, q] + Σₖ prop[p, k]·w₁[k, q] + bias[q]        (then max with 0 in the hidden layers).

  The kernel computes the dense part per block of 2000 rows on the matrix unit, from operands cast to a narrower float
  format; the reference computes it on all 50000 rows with two host matrix products. On the extended reals a change of
  float format is the identity and both matrix products are the plain sum over the contracted axis, so the two are the
  same function of the arguments, entry by entry; no finiteness of the inputs is used.

  The parts: Spec (the layer function), KernelMatmul and KernelBody (what one grid point stores), Regions (each call's
  output array as the layer function of the arrays it finds), Boundary (the kernel's whole run read at its last
  boundary), Glue (the shared host operations, named), FoldBase / FoldKeep / Fold0 / Fold1 / Fold2 (the boundary
  contents read back to the launch contents, call by call), ReferenceRun (the reference's run), ReferenceLayer and
  ReferenceValue (its result as the same three layers). The ideal pass rewrote nothing, so `preserves` is trivial.
-/
import proofs.«177321_j51573967290506_1_alg».proof.Defs
import proofs.«177321_j51573967290506_1_alg».proof.Proof.Gen.Kernel
import proofs.«177321_j51573967290506_1_alg».proof.Proof.Gen.Kernel.Skeleton
import proofs.«177321_j51573967290506_1_alg».proof.Proof.Gen.Kernel.Launch
import proofs.«177321_j51573967290506_1_alg».proof.Proof.Gen.Kernel.Points
import proofs.«177321_j51573967290506_1_alg».proof.Proof.Gen.Kernel.Frame
import proofs.«177321_j51573967290506_1_alg».proof.Proof.Gen.KernelIdeal
import proofs.«177321_j51573967290506_1_alg».proof.Proof.Gen.KernelIdeal.Skeleton
import proofs.«177321_j51573967290506_1_alg».proof.Proof.Gen.KernelIdeal.Launch
import proofs.«177321_j51573967290506_1_alg».proof.Proof.Gen.KernelIdeal.Points
import proofs.«177321_j51573967290506_1_alg».proof.Proof.Gen.KernelIdeal.Frame
import proofs.«177321_j51573967290506_1_alg».proof.Proof.Gen.ReferenceIdeal
import proofs.«177321_j51573967290506_1_alg».proof.Proof.Gen.Pre_finite_inputs
import proofs.«177321_j51573967290506_1_alg».proof.Proof.Boundary
import proofs.«177321_j51573967290506_1_alg».proof.Proof.Fold2
import proofs.«177321_j51573967290506_1_alg».proof.Proof.ReferenceRun
import proofs.«177321_j51573967290506_1_alg».proof.Proof.ReferenceValue
import Idealize.ShloMosaic.Adequacy
import Idealize.ShloMosaic.Init

noncomputable section

namespace Cert.Proof

open Idealize.ShloMosaic Idealize.SL.Sem

namespace ChebClaims

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both idealized programs end with the third layer of the launch contents in
    their result arrays: the kernel by its boundary contents read back call by call, the reference by its composed
    term. -/
theorem algebraic : Cert.algebraic_KernelIdeal_ReferenceIdeal := by
  intro m ρ m' ρ' _ hagree
  refine ⟨fun c => Cert.KernelIdeal.Fold.L3 m c, ?_, ?_⟩
  · exact (θ_run Cert.KernelIdeal.defs _ _).mono
      (fun r h c => ⟨(h c).1.trans (Cert.KernelIdeal.Fold.out2 m ρ c), (h c).2⟩)
      (Cert.KernelIdeal.Boundary.run_result m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7⟩ := hagree c
    rw [Cert.ReferenceIdeal.RefValue.result_eq, e0, e1, e2, e3, e4, e5, e6, e7]

end ChebClaims

theorem claim : Cert.Claim :=
  ⟨Cert.Kernel.Gen.facts, Cert.KernelIdeal.Gen.facts, Cert.ReferenceIdeal.Gen.facts, Cert.Pre_finite_inputs.Gen.facts,
    ChebClaims.frame_k, ChebClaims.frame_ki, ChebClaims.frame_ri, ChebClaims.preserves, ChebClaims.algebraic⟩

end Cert.Proof

end
